-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S3072x1024 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S1x1024 : Shape := ⟨2, ![1, 1024]⟩
abbrev S4096x3072 : Shape := ⟨2, ![4096, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 31
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1024x3072, .f32⟩
  | .hbm, ⟨7, _⟩ => ⟨S1024x3072, .bf16⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S4096x3072, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S2x2048x16x64, .f32⟩
  | .hbm, ⟨16, _⟩ => ⟨S2x16x2048x64, .f32⟩
  | .hbm, ⟨17, _⟩ => ⟨S32x2048x64, .f32⟩
  | .hbm, ⟨18, _⟩ => ⟨S2x2048x16x64, .f32⟩
  | .hbm, ⟨19, _⟩ => ⟨S2x16x2048x64, .f32⟩
  | .hbm, ⟨20, _⟩ => ⟨S32x2048x64, .f32⟩
  | .hbm, ⟨21, _⟩ => ⟨S2x2048x16x64, .f32⟩
  | .hbm, ⟨22, _⟩ => ⟨S2x16x2048x64, .f32⟩
  | .hbm, ⟨23, _⟩ => ⟨S32x2048x64, .f32⟩
  | .hbm, ⟨24, _⟩ => ⟨S32x2048x64, .f32⟩
  | .hbm, ⟨25, _⟩ => ⟨S2x16x2048x64, .f32⟩
  | .hbm, ⟨26, _⟩ => ⟨S2x2048x16x64, .f32⟩
  | .hbm, ⟨27, _⟩ => ⟨S4096x1024, .f32⟩
  | .hbm, ⟨28, _⟩ => ⟨S4096x1024, .bf16⟩
  | .hbm, ⟨29, _⟩ => ⟨S4096x1024, .f32⟩
  | .hbm, ⟨30, _⟩ => ⟨S2x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x512x64, .f32⟩
  | .local _ .vmem, ⟨7, _⟩ => ⟨S1x512x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x2048x64, .f32⟩
  | .local _ .vmem, ⟨12, _⟩ => ⟨S1x512x64, .f32⟩
  | .local _ .vmem, ⟨13, _⟩ => ⟨S1x512x64, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  bitsLt_bf16_f32 : FTy.bits .bf16 < FTy.bits .f32
  transposes_S3072x1024_S1024x3072_1_0 : S3072x1024.Transposes [1, 0] S1024x3072
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x1024_S2x2048x1024 : S4096x1024.ShapeCasts S2x2048x1024
  dot_S1024x1024_S1024x1024_S1024x1024_1_0_0_1_n_n_wf : DotDims.WF S1024x1024 S1024x1024 S1024x1024 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x3072.size a
  hwx0_2 : ∀ i : grid0.Coords, EltTy.bits .f32 = 32 ∨ (Rect.block (s := S4096x3072) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .f32 = 32 ∨ (Rect.block (s := S32x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .f32 = 32 ∨ (Rect.block (s := S32x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .f32 = 32 ∨ (Rect.block (s := S32x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x16x64, .f32⟩
  | .hbm, ⟨9, _⟩ => ⟨S2x16x2048x64, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .i1⟩
  | .hbm, ⟨19, _⟩ => ⟨S2048x2048, .i1⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S1x1x2048x2048, .i1⟩
  | .hbm, ⟨30, _⟩ => ⟨S_, .f32⟩
  | .hbm, ⟨31, _⟩ => ⟨S_, .f32⟩
  | .hbm, ⟨32, _⟩ => ⟨S2x16x2048x2048, .i1⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x64, .f32⟩
  | .hbm, ⟨50, _⟩ => ⟨S2x2048x16x64, .f32⟩
  | .hbm, ⟨51, _⟩ => ⟨S2x2048x1024, .f32⟩
  | .hbm, ⟨52, _⟩ => ⟨S2x2048x1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KernelRun.lean ====
/-
  The idealized kernel program's run with its RESULT named.

  The program is three pipelined regions among four stretches of host operations. Its frame certificate already follows
  the buffer contents from the launch memory through every segment boundary: `W7 m ρ c` is core `c`'s contents after the
  last host stretch. The same launch argument, read at the result buffer as well as at the four argument buffers, says that
  every weakly fair execution terminates with the result array at `W7 m ρ c` there and the arguments as launched.
-/
import proofs.«154488_j75634374083254_2_alg».proof.Proof.KernelIdealFrame

set_option maxRecDepth 16384

noncomputable section

namespace Cert.KernelIdeal.KRun

open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the four argument arrays as launched. -/
theorem run_named : θ_run defs (onTc (τ := τ) (main (F := F))) ⟨m, fun _ => 0, ρ⟩ (fun r => ∀ c : Dev nD,
      r.2.mem ((c.tc : Thread nD τ).loc main_v26) = W7 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v26 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.KRun

end
-- ==== Proof.Forms.lean ====
/-
  The arithmetic of causal self-attention, stated once over plain finite index types and read by both programs.

  * `mm a b` is the product of an R×K array with a K×N array: entry (r, n) is the sum over k of a(r,k)·b(k,n).
  * `mmb a b bias` adds a 1×N row to every row of that product.
  * For one head with T positions and D features, `score` is the scaled inner product of query row t with key row s,
    `masked` replaces it by -∞ (the bottom of the extended reals) when s comes after t, `rowMax` is the greatest masked
    score of a row, `expw` the exponential of a masked score less that maximum, `denom` the row's sum of those
    exponentials. `attnK` divides the weighted sum of value rows by the denominator AFTER summing; `attnR` divides every
    weight first (a softmax) and then sums. On finite data the two agree (distributivity over a real sum).
-/
import Idealize.ShloMosaic.PureOps.Ideal
import Idealize.ShloMosaic.Lib.ValueIdx

noncomputable section

open scoped BigOperators

namespace Cert.Forms

open Idealize.ShloMosaic Idealize.ShloMosaic.ValueIdx

/-- Entry (r, n) of the product of an R×K array and a K×N array. -/
def mm {R K N : Nat} (a : (⟨2, ![R, K]⟩ : Shape).Idx → EReal) (b : (⟨2, ![K, N]⟩ : Shape).Idx → EReal) :
    (⟨2, ![R, N]⟩ : Shape).Idx → EReal :=
  fun j => ∑ k : Fin K, a (ix2 (⟨(j 0).val, (j 0).isLt⟩ : Fin R) k) * b (ix2 k (⟨(j 1).val, (j 1).isLt⟩ : Fin N))

/-- The same product with a 1×N row added to each of its rows. -/
def mmb {R K N : Nat} (a : (⟨2, ![R, K]⟩ : Shape).Idx → EReal) (b : (⟨2, ![K, N]⟩ : Shape).Idx → EReal)
    (bias : (⟨2, ![1, N]⟩ : Shape).Idx → EReal) : (⟨2, ![R, N]⟩ : Shape).Idx → EReal :=
  fun j => mm a b j + bias (ix2 (0 : Fin 1) (⟨(j 1).val, (j 1).isLt⟩ : Fin N))

section OneHead

variable {T D : Nat}

/-- The scaled inner product of query row `t` and key row `s`. -/
def score (c : EReal) (q k : Fin T → Fin D → EReal) (t s : Fin T) : EReal := (∑ d : Fin D, q t d * k s d) * c

/-- The causal mask: position `s` is visible from `t` when it does not come after it; otherwise the score is -∞. -/
def masked (c : EReal) (q k : Fin T → Fin D → EReal) (t s : Fin T) : EReal :=
  if s.val ≤ t.val then score c q k t s else ⊥

/-- A row's greatest masked score. -/
def rowMax (c : EReal) (q k : Fin T → Fin D → EReal) (t : Fin T) : EReal :=
  (Finset.univ : Finset (Fin T)).fold max ⊥ (masked c q k t)

/-- The exponential of a masked score less the row's maximum. -/
def expw (c : EReal) (q k : Fin T → Fin D → EReal) (t s : Fin T) : EReal :=
  Ideal.exp (masked c q k t s - rowMax c q k t)

/-- A row's sum of exponentials. -/
def denom (c : EReal) (q k : Fin T → Fin D → EReal) (t : Fin T) : EReal := ∑ s : Fin T, expw c q k t s

/-- Attention with ONE division per output entry: the weighted sum of value rows over the denominator. -/
def attnK (c : EReal) (q k v : Fin T → Fin D → EReal) (t : Fin T) (d : Fin D) : EReal :=
  Ideal.div (∑ s : Fin T, expw c q k t s * v s d) (denom c q k t)

/-- Attention through a softmax: every weight divided by the denominator, then the weighted sum of value rows. -/
def attnR (c : EReal) (q k v : Fin T → Fin D → EReal) (t : Fin T) (d : Fin D) : EReal :=
  ∑ s : Fin T, Ideal.div (expw c q k t s) (denom c q k t) * v s d

end OneHead

/-- Head `bh` of a 32×2048×64 array as a 2048×64 table. -/
def head (x : (⟨3, ![32, 2048, 64]⟩ : Shape).Idx → EReal) (bh : Fin 32) : Fin 2048 → Fin 64 → EReal :=
  fun t d => x (ix3 bh t d)

/-- One-division attention of every head of three 32×2048×64 arrays, with scale `c`. -/
def attnAll (c : EReal) (q k v : (⟨3, ![32, 2048, 64]⟩ : Shape).Idx → EReal) : (⟨3, ![32, 2048, 64]⟩ : Shape).Idx → EReal :=
  fun j => attnK c (head q ⟨(j 0).val, (j 0).isLt⟩) (head k ⟨(j 0).val, (j 0).isLt⟩) (head v ⟨(j 0).val, (j 0).isLt⟩)
    ⟨(j 1).val, (j 1).isLt⟩ ⟨(j 2).val, (j 2).isLt⟩

end Cert.Forms

end
-- ==== Proof.KernelForm.lean ====
/-
  The kernel program's host-side layout steps, as functions of arrays, each read at an entry.

  Rows of the flattened activations are pairs (batch b, position t) at row b·2048 + t; a head index is (b, h) at b·16 + h;
  a feature column is (h, d) at h·64 + d. With these, reshaping the 2×2048×1024 input to 4096×1024 keeps entry (b, t, k);
  transposing a weight swaps its two coordinates; cutting the 4096×3072 projection into its query, key and value thirds and
  regrouping each as 32 heads of 2048×64 reads the projection at row (b, t) and column offset + h·64 + d; merging the heads'
  outputs back reads head (b, h) at (t, d); and the final reshape to 2×2048×1024 keeps entry (row (b, t), o).
-/
import proofs.«154488_j75634374083254_2_alg».proof.Proof.Gen.KernelIdeal
import proofs.«154488_j75634374083254_2_alg».proof.Proof.Forms
import Idealize.ShloMosaic.Lib.Pipeline.Value
import Idealize.ShloMosaic.Lib.ValueIdx

noncomputable section

open scoped BigOperators

namespace Cert.KernelIdeal.Form

open Cert.KernelIdeal Idealize.ShloMosaic Idealize.ShloMosaic.ValueIdx

/-- Row (b, t) of the flattened activations. -/
def row (b : Fin 2) (t : Fin 2048) : Fin 4096 := ⟨b.val * 2048 + t.val, by omega⟩
/-- Head (b, h) among the 32. -/
def hd (b : Fin 2) (h : Fin 16) : Fin 32 := ⟨b.val * 16 + h.val, by omega⟩
/-- Feature column (h, d) among the 1024. -/
def feat (h : Fin 16) (d : Fin 64) : Fin 1024 := ⟨h.val * 64 + d.val, by omega⟩

/-- The input flattened to 4096×1024 (and narrowed, which changes nothing over the extended reals). -/
def kX (x0 : S2x2048x1024.Idx → EReal) : S4096x1024.Idx → EReal :=
  truncf (F := Ideal) .bf16 (shapeCast S4096x1024 x0 Gen.shapeCasts_S2x2048x1024_S4096x1024) Gen.bitsLt_bf16_f32

theorem kX_apply (x0 : S2x2048x1024.Idx → EReal) (b : Fin 2) (t : Fin 2048) (k : Fin 1024) :
    kX x0 (ix2 (row b t) k) = x0 (ix3 b t k) := by
  show shapeCast S4096x1024 x0 Gen.shapeCasts_S2x2048x1024_S4096x1024 (ix2 (row b t) k) = _
  exact shapeCast_apply x0 _ _ _ (by
    rw [Shape.rowMajor_val_three, Shape.rowMajor_val_two]
    show (b.val * 2048 + t.val) * 1024 + k.val = (b.val * 2048 + t.val) * 1024 + k.val
    rfl)

/-- The stored 3072×1024 weight transposed to 1024×3072. -/
def kW (x1 : S3072x1024.Idx → EReal) : S1024x3072.Idx → EReal :=
  truncf (F := Ideal) .bf16 (transpose S1024x3072 [1, 0] x1 Gen.transposes_S3072x1024_S1024x3072_1_0) Gen.bitsLt_bf16_f32

theorem kW_apply (x1 : S3072x1024.Idx → EReal) (k : Fin 1024) (o : Fin 3072) : kW x1 (ix2 k o) = x1 (ix2 o k) := by
  show transpose S1024x3072 [1, 0] x1 Gen.transposes_S3072x1024_S1024x3072_1_0 (ix2 k o) = _
  exact transpose_apply _ x1 _ _ _ fun c => match c with | ⟨0, _⟩ => rfl | ⟨1, _⟩ => rfl

/-- The stored 1024×1024 output weight transposed. -/
def kWp (x2 : S1024x1024.Idx → EReal) : S1024x1024.Idx → EReal :=
  truncf (F := Ideal) .bf16 (transpose S1024x1024 [1, 0] x2 Gen.transposes_S1024x1024_S1024x1024_1_0) Gen.bitsLt_bf16_f32

theorem kWp_apply (x2 : S1024x1024.Idx → EReal) (k : Fin 1024) (o : Fin 1024) : kWp x2 (ix2 k o) = x2 (ix2 o k) := by
  show transpose S1024x1024 [1, 0] x2 Gen.transposes_S1024x1024_S1024x1024_1_0 (ix2 k o) = _
  exact transpose_apply _ x2 _ _ _ fun c => match c with | ⟨0, _⟩ => rfl | ⟨1, _⟩ => rfl

/-- The bias as a 1×1024 row. -/
def kB (x3 : S1024.Idx → EReal) : S1x1024.Idx → EReal := shapeCast S1x1024 x3 Gen.shapeCasts_S1024_S1x1024

theorem kB_apply (x3 : S1024.Idx → EReal) (o : Fin 1024) : kB x3 (ix2 (0 : Fin 1) o) = x3 (ix1 o) :=
  shapeCast_apply x3 _ _ _ (by
    rw [Shape.rowMajor_val_two, Shape.rowMajor_val_one]
    show o.val = 0 * 1024 + o.val
    omega)

/-- One third of the projection (columns off … off+1023) regrouped as 32 heads of 2048×64. -/
def kHead (off : Nat) (hs : S4096x3072.Slices ![0, off] S4096x1024) (z : S4096x3072.Idx → EReal) : S32x2048x64.Idx → EReal :=
  shapeCast S32x2048x64 (transpose S2x16x2048x64 [0, 2, 1, 3]
    (shapeCast S2x2048x16x64 (extractStridedSlice S4096x1024 ![0, off] z hs) Gen.shapeCasts_S4096x1024_S2x2048x16x64)
    Gen.transposes_S2x2048x16x64_S2x16x2048x64_0_2_1_3) Gen.shapeCasts_S2x16x2048x64_S32x2048x64

theorem kHead_apply (off : Nat) (hs : S4096x3072.Slices ![0, off] S4096x1024) (hoff : off + 1024 ≤ 3072) (z : S4096x3072.Idx → EReal)
    (b : Fin 2) (h : Fin 16) (t : Fin 2048) (d : Fin 64) :
    kHead off hs z (ix3 (hd b h) t d) = z (ix2 (row b t) (⟨off + (h.val * 64 + d.val), by omega⟩ : Fin 3072)) := by
  unfold kHead
  refine (shapeCast_apply _ _ (ix3 (hd b h) t d) (ix4 b h t d) ?_).trans ?_
  · rw [Shape.rowMajor_val_four, Shape.rowMajor_val_three]
    show ((b.val * 16 + h.val) * 2048 + t.val) * 64 + d.val = ((b.val * 16 + h.val) * 2048 + t.val) * 64 + d.val
    rfl
  refine (transpose_apply _ _ _ (ix4 b h t d) (ix4 b t h d)
    (fun c => match c with | ⟨0, _⟩ => rfl | ⟨1, _⟩ => rfl | ⟨2, _⟩ => rfl | ⟨3, _⟩ => rfl)).trans ?_
  refine (shapeCast_apply _ _ (ix4 b t h d) (ix2 (row b t) (feat h d)) ?_).trans ?_
  · rw [Shape.rowMajor_val_two, Shape.rowMajor_val_four]
    show (b.val * 2048 + t.val) * 1024 + (h.val * 64 + d.val) = ((b.val * 2048 + t.val) * 16 + h.val) * 64 + d.val
    omega
  refine extractStridedSlice_apply (s := S4096x3072) (t := S4096x1024) ![0, off] z hs (ix2 (row b t) (feat h d))
    (ix2 (row b t) (⟨off + (h.val * 64 + d.val), by omega⟩ : Fin 3072)) ?_
  intro a
  match a with
  | ⟨0, _⟩ => show b.val * 2048 + t.val = 0 + (b.val * 2048 + t.val); omega
  | ⟨1, _⟩ => rfl

/-- The heads' 32×2048×64 outputs merged back to 4096×1024 (and narrowed). -/
def kMerge (a : S32x2048x64.Idx → EReal) : S4096x1024.Idx → EReal :=
  truncf (F := Ideal) .bf16 (shapeCast S4096x1024 (transpose S2x2048x16x64 [0, 2, 1, 3]
    (shapeCast S2x16x2048x64 a Gen.shapeCasts_S32x2048x64_S2x16x2048x64)
    Gen.transposes_S2x16x2048x64_S2x2048x16x64_0_2_1_3) Gen.shapeCasts_S2x2048x16x64_S4096x1024) Gen.bitsLt_bf16_f32

theorem kMerge_apply (a : S32x2048x64.Idx → EReal) (b : Fin 2) (t : Fin 2048) (h : Fin 16) (d : Fin 64) :
    kMerge a (ix2 (row b t) (feat h d)) = a (ix3 (hd b h) t d) := by
  unfold kMerge
  rw [truncf_apply]
  refine (shapeCast_apply _ _ (ix2 (row b t) (feat h d)) (ix4 b t h d) ?_).trans ?_
  · rw [Shape.rowMajor_val_four, Shape.rowMajor_val_two]
    show ((b.val * 2048 + t.val) * 16 + h.val) * 64 + d.val = (b.val * 2048 + t.val) * 1024 + (h.val * 64 + d.val)
    omega
  refine (transpose_apply _ _ _ (ix4 b t h d) (ix4 b h t d)
    (fun c => match c with | ⟨0, _⟩ => rfl | ⟨1, _⟩ => rfl | ⟨2, _⟩ => rfl | ⟨3, _⟩ => rfl)).trans ?_
  exact shapeCast_apply a _ (ix4 b h t d) (ix3 (hd b h) t d) (by
    rw [Shape.rowMajor_val_three, Shape.rowMajor_val_four]
    show ((b.val * 16 + h.val) * 2048 + t.val) * 64 + d.val = ((b.val * 16 + h.val) * 2048 + t.val) * 64 + d.val
    rfl)

/-- The 4096×1024 result regrouped as 2×2048×1024. -/
def kFinal (z : S4096x1024.Idx → EReal) : S2x2048x1024.Idx → EReal :=
  shapeCast S2x2048x1024 z Gen.shapeCasts_S4096x1024_S2x2048x1024

theorem kFinal_apply (z : S4096x1024.Idx → EReal) (b : Fin 2) (t : Fin 2048) (o : Fin 1024) :
    kFinal z (ix3 b t o) = z (ix2 (row b t) o) :=
  shapeCast_apply z _ _ _ (by
    rw [Shape.rowMajor_val_two, Shape.rowMajor_val_three]
    show (b.val * 2048 + t.val) * 1024 + o.val = (b.val * 2048 + t.val) * 1024 + o.val
    rfl)

/-- The scale of the scores, the f32 word of 8. -/
abbrev c8 : EReal := Ideal.ofBits .f32 0x41000000#32

/-- The projection x·w_qkvᵀ as the kernel forms it. -/
def kQKV (x0 : S2x2048x1024.Idx → EReal) (x1 : S3072x1024.Idx → EReal) : S4096x3072.Idx → EReal :=
  Cert.Forms.mm (kX x0) (kW x1)

/-- Every head's attention as the kernel forms it. -/
def kAttn (z : S4096x3072.Idx → EReal) : S32x2048x64.Idx → EReal :=
  Cert.Forms.attnAll c8 (kHead 0 Gen.slices_S4096x3072_S4096x1024_0_0 z) (kHead 1024 Gen.slices_S4096x3072_S4096x1024_0_1024 z)
    (kHead 2048 Gen.slices_S4096x3072_S4096x1024_0_2048 z)

/-- The whole result as the kernel forms it, a function of the four argument arrays. -/
def kOut (x0 : S2x2048x1024.Idx → EReal) (x1 : S3072x1024.Idx → EReal) (x2 : S1024x1024.Idx → EReal) (x3 : S1024.Idx → EReal) :
    S2x2048x1024.Idx → EReal :=
  kFinal (Cert.Forms.mmb (kMerge (kAttn (kQKV x0 x1))) (kWp x2) (kB x3))

end Cert.KernelIdeal.Form

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.Region0.lean ====
/-
  Region 0: the first matrix product.

  The region's grid has 4 × 3 points; point (i, j) reads the 1024 rows of block i of the 4096×1024 left array (all
  1024 columns), the 1024 columns of block j of the 1024×3072 right array (all 1024 rows), multiplies them into a zero
  accumulator and writes the 1024×1024 product to block (i, j) of the 4096×3072 output. Entry (r, n) of the output is
  therefore written by the point (r / 1024, n / 1024) and holds the sum over k of left(r, k) · right(k, n): the whole
  array after the region is the matrix product of the two arrays the region was entered with.
-/
import proofs.«154488_j75634374083254_2_alg».proof.Proof.KernelIdealFrame
import proofs.«154488_j75634374083254_2_alg».proof.Proof.Forms
import proofs.«154488_j75634374083254_2_alg».proof.Proof.LibPlainDot
import Idealize.ShloMosaic.Lib.Pipeline.Value
import Idealize.ShloMosaic.Lib.Tactic

set_option maxRecDepth 16384

noncomputable section

namespace Cert.KernelIdeal.Region0

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

theorem hz : (![0, 0] : Fin 2 → Nat) = fun _ => 0 := funext fun a => by fin_cases a <;> rfl

/-- The body's arithmetic at one entry: the product of the two loaded blocks into the zero accumulator is, at
    (p, q), the sum over k of left(p, k) · right(k, q). -/
theorem pay_apply (x0 x1 : FVec Ideal S1024x1024 .bf16) (p q : Fin 1024) :
    k0_pay1 (F := Ideal) x0 x1 (ix2 p q) = ∑ k : Fin 1024, x0 (ix2 p k) * x1 (ix2 k q) := by
  have e0 : shapeCast S1024x1024 x0 shapeCasts_S1024x1024_S1024x1024 = x0 := shapeCast_self x0 _
  have e1 : shapeCast S1024x1024 x1 shapeCasts_S1024x1024_S1024x1024 = x1 := shapeCast_self x1 _
  unfold k0_pay1
  rw [e0, e1]
  exact Cert.LibPlainDot.matmul_zero_apply _ rfl none x0 x1 p q

/-- The printed index maps, decided once over the 12 grid points: the left operand's row block is the output's, its
    column block is 0; the right operand's row block is 0, its column block is the output's; the output's block
    indices stay below 4 and 3. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 2 :=
  (by decide +kernel : ∀ t : Fin grid0.N, _)

/-- Every block (q0, q1) of the 4 × 3 output blocks is some grid point's. -/
theorem idx_onto : ∀ (q0 : Fin 4) (q1 : Fin 3), ∃ t : Fin cfg0.N, win0_2.index t = ![q0.val, q1.val] :=
  (by decide +kernel : ∀ (q0 : Fin 4) (q1 : Fin 3), ∃ t : Fin grid0.N, win0_2.index t = ![q0.val, q1.val])

/-- One entry of what point `t` computes, over arbitrary arrays: the product of the left array's row block and the
    right array's column block, at (p, q) of the block, is the whole product at the entry of the output array that
    (p, q) of point `t`'s output block names. -/
theorem point_eq (A : S4096x1024.Idx → EReal) (B : S1024x3072.Idx → EReal) (t : Fin cfg0.N) (j : S1024x1024.Idx) :
    k0_pay1 (F := Ideal) (fun y => A (((cfg0.win 0).blk t).view.emb y)) (fun y => B (((cfg0.win 1).blk t).view.emb y)) j
      = Cert.Forms.mm A B (((cfg0.win 2).blk t).view.emb j) := by
  obtain ⟨e00, e01, e10, e11, -, -⟩ := idx_facts t
  obtain ⟨p, q, rfl⟩ : ∃ p q, j = ix2 p q := ⟨j 0, j 1, eq_ix2 j⟩
  rw [pay_apply]
  unfold Cert.Forms.mm
  refine Finset.sum_congr rfl fun k _ => ?_
  congr 1
  · refine congrArg A (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  · refine congrArg B (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_2.index t (1 : Fin 2) * 1024 + 1 * q.val; omega

variable (V : (c : Dev nD) → (b : Ref sig .tc) → Buf (Elt Ideal) ((c : Thread nD τ).loc b))

/-- What point `t` writes back is block `t` of the product of the two arrays the region was entered with. -/
theorem flushed_eq (c : Dev nD) (t : Fin cfg0.N) :
    (GenP.dat0 V c).flushed 2 t
      = ((cfg0.win 2).blk t).view.read (Elt Ideal)
          (Cert.Forms.mm (V c main_v1 : S4096x1024.Idx → EReal) (V c main_v3 : S1024x3072.Idx → EReal)) := by
  show (cfg0.win 2).cut (grid0.coords t) ((GenP.dat0 V c).after 2 t) = _
  rw [GenP.after0_2]
  unfold GenP.out0_2
  rw [View.canon_unit_zero hz]
  simp only [View.ld_unit_zero (S := S1024x1024) hz]
  funext j
  exact point_eq (V c main_v1) (V c main_v3) t j

/-- An index of the output array is in point `t`'s block iff each coordinate is in the block's range on its axis. -/
theorem mem_blk (t : Fin cfg0.N) (i : S4096x3072.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v7).slice (win0_2.rect t)).set ↔ _
  rw [View.set_slice_whole, Rect.mem_set_unit]
  exact Iff.rfl

/-- Every entry (r, n) of the output array lies in the block of the point whose output block is (r / 1024, n / 1024). -/
theorem cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the region is the matrix product of the two arrays the region was entered with. -/
theorem final0 (c : Dev nD) :
    ((GenP.dat0 V c).arrAt 2 cfg0.N : S4096x3072.Idx → EReal)
      = Cert.Forms.mm (V c main_v1 : S4096x1024.Idx → EReal) (V c main_v3 : S1024x3072.Idx → EReal) :=
  (GenP.dat0 V c).arrAt_eq_of_cover 2 _ (fun t _ => flushed_eq V c t) cover

end Cert.KernelIdeal.Region0

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Region1Pay.lean ====
/-
  One query tile of causal self-attention, read at an entry.

  The tile's arithmetic on a 512×64 block of queries and the 2048×64 key and value tables of one head is named piece by
  piece — the scaled scores, the causal mask, the masked scores, each row's greatest masked score, the exponentials,
  each row's sum of exponentials — and each piece is read at an index: the scores are sums over the 64 features, the
  mask bit at (y, s) says s ≤ qi·512 + y, the masked score is the score or -∞, a row's greatest is a fold of max from
  -∞ over the 2048 key positions, a row's sum is a sum over them. Put together, entry (y, d) of the tile is the sum over
  key positions of exponential times value, divided once by the row's sum: the one-division form of attention, at global
  query position qi·512 + y.
-/
import proofs.«154488_j75634374083254_2_alg».proof.Proof.Gen.KernelIdeal.Skeleton
import proofs.«154488_j75634374083254_2_alg».proof.Proof.Forms
import proofs.«154488_j75634374083254_2_alg».proof.Proof.LibPlainDot
import proofs.«154488_j75634374083254_2_alg».proof.Proof.LibColumn
import Idealize.ShloMosaic.Lib.ValueLayout
import Idealize.ShloMosaic.Lib.Pipeline.Value
import Idealize.ShloMosaic.PureOps.Ideal.Laws
import Idealize.ShloMosaic.Lib.Affine

noncomputable section
namespace Cert.KernelIdeal.Region1
open Idealize.ShloMosaic Idealize.ShloMosaic.ValueIdx Cert.KernelIdeal Cert.KernelIdeal.Gen
open scoped BigOperators

/-! ## The arithmetic of one query tile, named piece by piece -/

/-- The scaled scores of a tile: the product of the 512×64 query tile with the transposed 2048×64 key table, times the scale. -/
def sc (x0 : Vec Ideal S1x512x64 .f32) (x1 : Vec Ideal S1x2048x64 .f32) : FVec Ideal S512x2048 .f32 :=
  mulf
    (matmul dot_S512x64_S64x2048_S512x2048_1_0_0_1_n_n none
      (truncf FTy.bf16 (shapeCast S512x64 x0 shapeCasts_S1x512x64_S512x64) bitsLt_bf16_f32)
      (transpose S64x2048 [1, 0]
        (truncf FTy.bf16 (shapeCast S2048x64 x1 shapeCasts_S1x2048x64_S2048x64) bitsLt_bf16_f32)
        transposes_S2048x64_p1_0_S64x2048)
      (constant (F := Ideal) S512x2048 FTy.f32 0x00000000#32))
    (broadcast S512x2048 (FloatOps.ofBits FTy.f32 0x41000000#32))

/-- The causal mask of tile `qi`: the bit at (y, s) compares the global query position qi·512 + y with the key position s. -/
def mk (i : grid1.Coords) : IVec S512x2048 1 :=
  cmpi CmpIPredicate.sge
    (addi (broadcast S512x2048 (Scalar.muli (BitVec.ofNat 32 (i 1).val) 512#32))
      (iota Kind.tc S512x2048 32 [0] iota_S512x2048_d0_w32))
    (iota Kind.tc S512x2048 32 [1] iota_S512x2048_d1_w32)

/-- The masked scores: the scaled score where the mask bit is set, the named constant (-∞ over the extended reals) elsewhere. -/
def ms (i : grid1.Coords) (x0 : Vec Ideal S1x512x64 .f32) (x1 : Vec Ideal S1x2048x64 .f32) : FVec Ideal S512x2048 .f32 :=
  select (mk i) (sc x0 x1) (broadcast S512x2048 (Named.named (F := Ideal) κ "neg_big" (φ := .f32) 0xFF333332#32))

theorem sc_apply (x0 : Vec Ideal S1x512x64 .f32) (x1 : Vec Ideal S1x2048x64 .f32) (y : Fin 512) (s : Fin 2048) :
    sc x0 x1 (ix2 y s) = (∑ e : Fin 64, x0 (ix3 (0 : Fin 1) y e) * x1 (ix3 (0 : Fin 1) s e)) * Ideal.ofBits .f32 0x41000000#32 := by
  unfold sc
  rw [mulf_apply, broadcast_apply, Ideal.ofBits_def]
  refine congrArg (· * Ideal.ofBits .f32 0x41000000#32) ?_
  refine (Cert.LibPlainDot.matmul_zero_apply _ rfl none _ _ y s).trans ?_
  refine Finset.sum_congr rfl fun e _ => ?_
  rw [truncf_apply, transpose_ix2_apply, truncf_apply, shapeCast_1ab_ab_apply, shapeCast_1ab_ab_apply]

theorem mask_bit (q : Nat) (hq : q < 4) (y : Fin 512) (s : Fin 2048) :
    IntOp.cmpi .sge (IntOp.addi (Scalar.muli (BitVec.ofNat 32 q) 512#32) (BitVec.ofNat 32 y.val)) (BitVec.ofNat 32 s.val) = 1#1
      ↔ s.val ≤ q * 512 + y.val := by
  rw [IntOp.cmpi_sge]
  have hy := y.isLt
  have hs := s.isLt
  have e : IntOp.addi (Scalar.muli (BitVec.ofNat 32 q) 512#32) (BitVec.ofNat 32 y.val) = BitVec.ofNat 32 (q * 512 + y.val) := by
    show BitVec.ofNat 32 q * BitVec.ofNat 32 512 + BitVec.ofNat 32 y.val = _
    rw [← BitVec.ofNat_mul, ← BitVec.ofNat_add]
  rw [e, BitVec.toInt_eq_toNat_cond, BitVec.toInt_eq_toNat_cond, BitVec.toNat_ofNat, BitVec.toNat_ofNat]
  omega

theorem mk_apply (i : grid1.Coords) (y : Fin 512) (s : Fin 2048) :
    mk i (ix2 y s) = 1#1 ↔ s.val ≤ (i 1).val * 512 + y.val := by
  have hq : (i 1).val < 4 := (i 1).isLt
  have e0 : iota Kind.tc S512x2048 32 [0] iota_S512x2048_d0_w32 (ix2 y s) = BitVec.ofNat 32 y.val :=
    iota_single_apply Kind.tc S512x2048 32 0 iota_S512x2048_d0_w32 (ix2 y s)
  have e1 : iota Kind.tc S512x2048 32 [1] iota_S512x2048_d1_w32 (ix2 y s) = BitVec.ofNat 32 s.val :=
    iota_single_apply Kind.tc S512x2048 32 1 iota_S512x2048_d1_w32 (ix2 y s)
  show IntOp.cmpi .sge (IntOp.addi (Scalar.muli (BitVec.ofNat 32 (i 1).val) 512#32) (iota Kind.tc S512x2048 32 [0] iota_S512x2048_d0_w32 (ix2 y s)))
      (iota Kind.tc S512x2048 32 [1] iota_S512x2048_d1_w32 (ix2 y s)) = 1#1 ↔ _
  rw [e0, e1]
  exact mask_bit _ hq y s

theorem neg_big : Named.named (F := Ideal) κ "neg_big" (φ := .f32) 0xFF333332#32 = ⊥ :=
  IdealRules.named_const.ideal_named_scalar _ _ _ _ rfl

theorem ms_apply (i : grid1.Coords) (x0 : Vec Ideal S1x512x64 .f32) (x1 : Vec Ideal S1x2048x64 .f32) (y : Fin 512) (s : Fin 2048) :
    ms i x0 x1 (ix2 y s) = if s.val ≤ (i 1).val * 512 + y.val then sc x0 x1 (ix2 y s) else ⊥ := by
  unfold ms
  rw [select_apply, broadcast_apply, neg_big]
  by_cases h : s.val ≤ (i 1).val * 512 + y.val
  · rw [(mk_apply i y s).mpr h, select_one, if_pos h]
  · rw [eq_zero_of_ne_one (fun hh => h ((mk_apply i y s).mp hh)), select_zero, if_neg h]

/-- The greatest masked score of each row of the tile. -/
def rm (i : grid1.Coords) (x0 : Vec Ideal S1x512x64 .f32) (x1 : Vec Ideal S1x2048x64 .f32) : FVec Ideal S512 .f32 :=
  multiReduction (F := Ideal) FKind.maximumf [1] S512 (ms i x0 x1) 0xFF800000#32 reduces_S512x2048_S512 (.inl rfl) rfl

/-- The exponential of each masked score less its row's greatest. -/
def ew (i : grid1.Coords) (x0 : Vec Ideal S1x512x64 .f32) (x1 : Vec Ideal S1x2048x64 .f32) : FVec Ideal S512x2048 .f32 :=
  exp (subf (ms i x0 x1)
    (broadcastTo S512x2048 (shapeCast S512x1 (rm i x0 x1) shapeCasts_S512_S512x1) broadcasts_S512x1_S512x2048))

/-- Each row's sum of those exponentials. -/
def dn (i : grid1.Coords) (x0 : Vec Ideal S1x512x64 .f32) (x1 : Vec Ideal S1x2048x64 .f32) : FVec Ideal S512 .f32 :=
  multiReduction (F := Ideal) FKind.add [1] S512 (ew i x0 x1) 0x00000000#32 reduces_S512x2048_S512 (.inl rfl) rfl

/-- The tile's payload is those pieces put together: the exponentials times the value table, over the row sums. -/
theorem pay_eq (i : grid1.Coords) (x0 : Vec Ideal S1x512x64 .f32) (x1 x2 : Vec Ideal S1x2048x64 .f32) :
    k1_pay1 (F := Ideal) i x0 x1 x2
      = shapeCast S1x512x64
          (divf
            (matmul dot_S512x2048_S2048x64_S512x64_1_0_0_1_n_n none
              (truncf FTy.bf16 (ew i x0 x1) bitsLt_bf16_f32)
              (truncf FTy.bf16 (shapeCast S2048x64 x2 shapeCasts_S1x2048x64_S2048x64) bitsLt_bf16_f32)
              (constant (F := Ideal) S512x64 FTy.f32 0x00000000#32))
            (broadcastTo S512x64 (shapeCast S512x1 (dn i x0 x1) shapeCasts_S512_S512x1) broadcasts_S512x1_S512x64))
          shapeCasts_S512x64_S1x512x64 := rfl

theorem neg_inf : Ideal.ofBits .f32 0xFF800000#32 = ⊥ := by simp [Ideal.ofBits, Ideal.ieee]

theorem lift_row (y : Fin 512) (s : Fin 2048) :
    reduces_S512x2048_S512.lift (ix1 y) s = ix2 y s :=
  funext fun a => Fin.ext (by
    match a with
    | ⟨0, _⟩ => rfl
    | ⟨1, _⟩ => rfl)

theorem rm_apply (i : grid1.Coords) (x0 : Vec Ideal S1x512x64 .f32) (x1 : Vec Ideal S1x2048x64 .f32) (y : Fin 512) :
    rm i x0 x1 (ix1 y) = (Finset.univ : Finset (Fin 2048)).fold max ⊥ (fun s => ms i x0 x1 (ix2 y s)) := by
  unfold rm
  refine (Ideal.multiReduction_maximumf_single (ms i x0 x1) 0xFF800000#32 reduces_S512x2048_S512 (.inl rfl) rfl (ix1 y)).trans ?_
  rw [Ideal.ofBits_def, neg_inf]
  refine congrArg (fun f => (Finset.univ : Finset (Fin 2048)).fold max ⊥ f) ?_
  funext s
  exact congrArg (ms i x0 x1) (lift_row y s)

theorem ew_apply (i : grid1.Coords) (x0 : Vec Ideal S1x512x64 .f32) (x1 : Vec Ideal S1x2048x64 .f32) (y : Fin 512) (s : Fin 2048) :
    ew i x0 x1 (ix2 y s) = Ideal.exp (ms i x0 x1 (ix2 y s) - rm i x0 x1 (ix1 y)) := by
  unfold ew
  show FloatOps.exp (subf _ _ (ix2 y s)) = _
  rw [Ideal.exp_def, subf_apply, Cert.LibColumn.broadcastTo_a1_ab_apply, Cert.LibColumn.shapeCast_a_a1_apply]

theorem dn_apply (i : grid1.Coords) (x0 : Vec Ideal S1x512x64 .f32) (x1 : Vec Ideal S1x2048x64 .f32) (y : Fin 512) :
    dn i x0 x1 (ix1 y) = ∑ s : Fin 2048, ew i x0 x1 (ix2 y s) := by
  unfold dn
  refine (Ideal.multiReduction_add_single (ew i x0 x1) 0x00000000#32 reduces_S512x2048_S512 (.inl rfl) rfl (ix1 y)).trans ?_
  refine Finset.sum_congr rfl fun s _ => ?_
  exact congrArg (ew i x0 x1) (lift_row y s)

/-- THE PAYLOAD AT AN ENTRY: row y, feature d of tile `qi` is the sum over key positions of the row's exponentials times
    the value table's column d, divided (once) by the row's sum of exponentials. -/
theorem pay_apply (i : grid1.Coords) (x0 : Vec Ideal S1x512x64 .f32) (x1 x2 : Vec Ideal S1x2048x64 .f32)
    (u : Fin 1) (y : Fin 512) (d : Fin 64) :
    k1_pay1 (F := Ideal) i x0 x1 x2 (ix3 u y d)
      = Ideal.div (∑ s : Fin 2048, ew i x0 x1 (ix2 y s) * x2 (ix3 (0 : Fin 1) s d)) (∑ s : Fin 2048, ew i x0 x1 (ix2 y s)) := by
  rw [pay_eq]
  refine (shapeCast_ab_1ab_apply _ _ u y d).trans ?_
  rw [divf_apply, Cert.LibColumn.broadcastTo_a1_ab_apply, Cert.LibColumn.shapeCast_a_a1_apply, dn_apply]
  refine congrArg (fun z => Ideal.div z _) ?_
  refine (Cert.LibPlainDot.matmul_zero_apply _ rfl none _ _ y d).trans ?_
  refine Finset.sum_congr rfl fun s _ => ?_
  rw [truncf_apply, truncf_apply, shapeCast_1ab_ab_apply]

/-- THE PAYLOAD AS ONE-DIVISION ATTENTION: when the tile's query rows are rows qi·512 + y of a 2048×64 table `Q`, and the
    key and value blocks are the tables `K` and `W`, entry (y, d) of the payload is `attnK` of the tables at (qi·512 + y, d). -/
theorem pay_attn (i : grid1.Coords) (x0 : Vec Ideal S1x512x64 .f32) (x1 x2 : Vec Ideal S1x2048x64 .f32)
    (Q K W : Fin 2048 → Fin 64 → EReal) (t : Fin 2048) (u : Fin 1) (y : Fin 512) (d : Fin 64)
    (ht : t.val = (i 1).val * 512 + y.val)
    (hq : ∀ e, x0 (ix3 (0 : Fin 1) y e) = Q t e) (hk : ∀ s e, x1 (ix3 (0 : Fin 1) s e) = K s e)
    (hv : ∀ s e, x2 (ix3 (0 : Fin 1) s e) = W s e) :
    k1_pay1 (F := Ideal) i x0 x1 x2 (ix3 u y d) = Cert.Forms.attnK (Ideal.ofBits .f32 0x41000000#32) Q K W t d := by
  have hms : ∀ s, ms i x0 x1 (ix2 y s) = Cert.Forms.masked (Ideal.ofBits .f32 0x41000000#32) Q K t s := by
    intro s
    rw [ms_apply, sc_apply]
    unfold Cert.Forms.masked Cert.Forms.score
    rw [ht]
    simp only [hq, hk]
  have hrm : rm i x0 x1 (ix1 y) = Cert.Forms.rowMax (Ideal.ofBits .f32 0x41000000#32) Q K t := by
    rw [rm_apply]
    unfold Cert.Forms.rowMax
    exact congrArg (fun f => (Finset.univ : Finset (Fin 2048)).fold max ⊥ f) (funext hms)
  have hew : ∀ s, ew i x0 x1 (ix2 y s) = Cert.Forms.expw (Ideal.ofBits .f32 0x41000000#32) Q K t s := by
    intro s
    rw [ew_apply, hms, hrm]
    rfl
  rw [pay_apply]
  unfold Cert.Forms.attnK Cert.Forms.denom
  simp only [hew, hv]

end Cert.KernelIdeal.Region1
end
-- ==== Proof.Region1.lean ====
/-
  The attention region, from blocks to the array.

  The region runs over a 32×4 grid: point t is head t / 4 and query tile t % 4. At point t the query window holds rows
  (t % 4)·512 … (t % 4)·512 + 511 of head t / 4 of the query array, the key and value windows hold the whole 2048×64
  tables of that head, and the body leaves in the output window the tile's payload. Entry (y, d) of the payload is the
  one-division attention of the head's three tables at (query position (t % 4)·512 + y, feature d) (the payload lemma),
  so what point t writes back is block t of ONE function of the three arrays: one-division attention of every head.
  The 128 blocks cover the output array — entry (bh, p, d) lies in the block of point bh·4 + p / 512 — hence the array
  ends holding that function.
-/
import proofs.«154488_j75634374083254_2_alg».proof.Proof.KernelIdealFrame
import proofs.«154488_j75634374083254_2_alg».proof.Proof.Forms
import proofs.«154488_j75634374083254_2_alg».proof.Proof.Region1Pay
import Idealize.ShloMosaic.Lib.Pipeline.Value

noncomputable section
namespace Cert.KernelIdeal.Region1
open Idealize.ShloMosaic Idealize.ShloMosaic.TcCoe Idealize.SL.Sem Cert.KernelIdeal Cert.KernelIdeal.Gen
open Idealize.ShloMosaic.ValueIdx
open Idealize.ShloMosaic.Pipeline (Dat)

theorem hz : (![0, 0, 0] : Fin 3 → Nat) = fun _ => 0 := funext fun a => by fin_cases a <;> rfl

/-- The printed index maps, decided once over the 128 points of the grid: point t is head t / 4 and query tile t % 4;
    the query and output windows sit at block (t / 4, t % 4, 0), the key and value windows at block (t / 4, 0, 0). -/
theorem idx_facts : ∀ t : Fin cfg1.N,
    (grid1.coords t 1).val = t.val % 4
    ∧ win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

section Blocks
variable (V : (c : Dev nD) → (b : Ref sig .tc) → Buf (Elt Ideal) ((c : Thread nD τ).loc b)) (c : Dev nD)

/-- The query window's block at point t holds rows (t % 4)·512 … of head t / 4 of the query array. -/
theorem qblk_apply (t : Fin cfg1.N) (y : S1x512x64.Idx) (k : S32x2048x64.Idx)
    (h0 : (k 0).val = t.val / 4 + (y 0).val) (h1 : (k 1).val = t.val % 4 * 512 + (y 1).val) (h2 : (k 2).val = (y 2).val) :
    (GenP.iblk1 V c 0 t : Vec Ideal S1x512x64 .f32) y = (V c main_v13 : S32x2048x64.Idx → EReal) k := by
  obtain ⟨-, e0, e1, e2, -⟩ := idx_facts t
  unfold GenP.iblk1
  rw [View.read_apply]
  show V c main_v13 _ = V c main_v13 _
  congr 1
  funext a
  apply Fin.ext
  match a with
  | ⟨0, _⟩ => show win1_0.index t (0 : Fin 3) * 1 + 1 * (y 0).val = (k 0).val; rw [e0, h0]; omega
  | ⟨1, _⟩ => show win1_0.index t (1 : Fin 3) * 512 + 1 * (y 1).val = (k 1).val; rw [e1, h1]; omega
  | ⟨2, _⟩ => show win1_0.index t (2 : Fin 3) * 64 + 1 * (y 2).val = (k 2).val; rw [e2, h2]; omega
end Blocks

section Blocks2
variable (V : (c : Dev nD) → (b : Ref sig .tc) → Buf (Elt Ideal) ((c : Thread nD τ).loc b)) (c : Dev nD)

/-- The key window's block at point t is the whole table of head t / 4 of the key array. -/
theorem kblk_apply (t : Fin cfg1.N) (y : S1x2048x64.Idx) (k : S32x2048x64.Idx)
    (h0 : (k 0).val = t.val / 4 + (y 0).val) (h1 : (k 1).val = (y 1).val) (h2 : (k 2).val = (y 2).val) :
    (GenP.iblk1 V c 1 t : Vec Ideal S1x2048x64 .f32) y = (V c main_v16 : S32x2048x64.Idx → EReal) k := by
  obtain ⟨-, -, -, -, e0, e1, e2, -⟩ := idx_facts t
  unfold GenP.iblk1
  rw [View.read_apply]
  show V c main_v16 _ = V c main_v16 _
  congr 1
  funext a
  apply Fin.ext
  match a with
  | ⟨0, _⟩ => show win1_1.index t (0 : Fin 3) * 1 + 1 * (y 0).val = (k 0).val; rw [e0, h0]; omega
  | ⟨1, _⟩ => show win1_1.index t (1 : Fin 3) * 2048 + 1 * (y 1).val = (k 1).val; rw [e1, h1]; omega
  | ⟨2, _⟩ => show win1_1.index t (2 : Fin 3) * 64 + 1 * (y 2).val = (k 2).val; rw [e2, h2]; omega

/-- The value window's block at point t is the whole table of head t / 4 of the value array. -/
theorem vblk_apply (t : Fin cfg1.N) (y : S1x2048x64.Idx) (k : S32x2048x64.Idx)
    (h0 : (k 0).val = t.val / 4 + (y 0).val) (h1 : (k 1).val = (y 1).val) (h2 : (k 2).val = (y 2).val) :
    (GenP.iblk1 V c 2 t : Vec Ideal S1x2048x64 .f32) y = (V c main_v19 : S32x2048x64.Idx → EReal) k := by
  obtain ⟨-, -, -, -, -, -, -, e0, e1, e2, -⟩ := idx_facts t
  unfold GenP.iblk1
  rw [View.read_apply]
  show V c main_v19 _ = V c main_v19 _
  congr 1
  funext a
  apply Fin.ext
  match a with
  | ⟨0, _⟩ => show win1_2.index t (0 : Fin 3) * 1 + 1 * (y 0).val = (k 0).val; rw [e0, h0]; omega
  | ⟨1, _⟩ => show win1_2.index t (1 : Fin 3) * 2048 + 1 * (y 1).val = (k 1).val; rw [e1, h1]; omega
  | ⟨2, _⟩ => show win1_2.index t (2 : Fin 3) * 64 + 1 * (y 2).val = (k 2).val; rw [e2, h2]; omega

/-- What the output array ends holding: one-division attention of every head of the three arrays the region is entered with. -/
abbrev G : S32x2048x64.Idx → EReal :=
  Cert.Forms.attnAll (Ideal.ofBits .f32 0x41000000#32) (V c main_v13 : S32x2048x64.Idx → EReal)
    (V c main_v16 : S32x2048x64.Idx → EReal) (V c main_v19 : S32x2048x64.Idx → EReal)

/-- WHAT POINT t WRITES BACK is block t of that function. -/
theorem flushed_eq (t : Fin cfg1.N) :
    (GenP.dat1 V c).flushed 3 t = ((cfg1.win 3).blk t).view.read (Elt Ideal) (G V c) := by
  show (cfg1.win 3).cut (grid1.coords t) ((GenP.dat1 V c).after 3 t) = _
  rw [GenP.after1_3]
  unfold GenP.out1_3
  rw [View.canon_unit_zero hz]
  simp only [View.ld_unit_zero (S := S1x512x64) hz, View.ld_unit_zero (S := S1x2048x64) hz]
  funext j
  obtain ⟨eq1, -, -, -, -, -, -, -, -, -, e0, e1, e2⟩ := idx_facts t
  have hN : t.val < 128 := lt_of_lt_of_eq t.isLt N_1
  have hj0 : (j 0).val < 1 := (j 0).isLt
  have hj1 : (j 1).val < 512 := (j 1).isLt
  have hj2 : (j 2).val < 64 := (j 2).isLt
  -- the entry's place in the array: head t / 4, query position (t % 4)·512 + its row, its own feature
  have hidx : ((cfg1.win 3).blk t).view.emb j
      = ix3 (⟨t.val / 4, by omega⟩ : Fin 32) (⟨t.val % 4 * 512 + (j 1).val, by omega⟩ : Fin 2048) (⟨(j 2).val, hj2⟩ : Fin 64) := by
    funext a
    apply Fin.ext
    match a with
    | ⟨0, _⟩ => show win1_3.index t (0 : Fin 3) * 1 + 1 * (j 0).val = t.val / 4; rw [e0]; omega
    | ⟨1, _⟩ => show win1_3.index t (1 : Fin 3) * 512 + 1 * (j 1).val = t.val % 4 * 512 + (j 1).val; rw [e1]; omega
    | ⟨2, _⟩ => show win1_3.index t (2 : Fin 3) * 64 + 1 * (j 2).val = (j 2).val; rw [e2]; omega
  have hx : win1_3.xinj (grid1.coords t) j = ix3 (⟨(j 0).val, hj0⟩ : Fin 1) (⟨(j 1).val, hj1⟩ : Fin 512) (⟨(j 2).val, hj2⟩ : Fin 64) := by
    funext a
    apply Fin.ext
    match a with
    | ⟨0, _⟩ => rfl
    | ⟨1, _⟩ => rfl
    | ⟨2, _⟩ => rfl
  show k1_pay1 (grid1.coords t) (GenP.iblk1 V c 0 t) (GenP.iblk1 V c 1 t) (GenP.iblk1 V c 2 t) (win1_3.xinj (grid1.coords t) j)
      = G V c (((cfg1.win 3).blk t).view.emb j)
  refine (congrArg _ hx).trans (Eq.trans ?_ (congrArg (G V c) hidx).symm)
  show _ = Cert.Forms.attnK _ (Cert.Forms.head _ (⟨t.val / 4, by omega⟩ : Fin 32)) (Cert.Forms.head _ (⟨t.val / 4, by omega⟩ : Fin 32))
      (Cert.Forms.head _ (⟨t.val / 4, by omega⟩ : Fin 32)) (⟨t.val % 4 * 512 + (j 1).val, by omega⟩ : Fin 2048) (⟨(j 2).val, hj2⟩ : Fin 64)
  refine pay_attn (grid1.coords t) _ _ _ _ _ _ _ _ _ _ ?_ ?_ ?_ ?_
  · show t.val % 4 * 512 + (j 1).val = (grid1.coords t 1).val * 512 + (j 1).val
    rw [eq1]
  · intro e
    exact qblk_apply V c t _ _ (Nat.add_zero _).symm rfl rfl
  · intro s e
    exact kblk_apply V c t _ _ (Nat.add_zero _).symm rfl rfl
  · intro s e
    exact vblk_apply V c t _ _ (Nat.add_zero _).symm rfl rfl
end Blocks2

section Final
variable (V : (c : Dev nD) → (b : Ref sig .tc) → Buf (Elt Ideal) ((c : Thread nD τ).loc b)) (c : Dev nD)

/-- An index of the output array is in point t's block iff each coordinate is in the block's range on its axis. -/
theorem mem_blk (t : Fin cfg1.N) (i : S32x2048x64.Idx) :
    i ∈ ((cfg1.win 3).blk t).view.set
      ↔ ∀ a : Fin 3, win1_3.index t a * S1x512x64.size a ≤ (i a).val ∧ (i a).val < win1_3.index t a * S1x512x64.size a + S1x512x64.size a := by
  show i ∈ ((View.whole main_v20).slice (win1_3.rect t)).set ↔ _
  rw [View.set_slice_whole, Rect.mem_set_unit]
  exact Iff.rfl

/-- THE OUTPUT ARRAY after the region: one-division attention of every head, as one function of the three arrays the
    region is entered with. Entry (bh, p, d) lies in the block of point bh·4 + p / 512, and the 128 blocks cover the array. -/
theorem final1 :
    ((GenP.dat1 V c).arrAt 3 cfg1.N : S32x2048x64.Idx → EReal)
      = Cert.Forms.attnAll (Ideal.ofBits .f32 0x41000000#32) (V c main_v13 : S32x2048x64.Idx → EReal) (V c main_v16 : S32x2048x64.Idx → EReal) (V c main_v19 : S32x2048x64.Idx → EReal) :=
  (GenP.dat1 V c).arrAt_eq_of_cover 3 (G V c) (fun t _ => flushed_eq V c t) fun i => by
    have h0 : (i 0).val < 32 := (i 0).isLt
    have h1 : (i 1).val < 2048 := (i 1).isLt
    have h2 : (i 2).val < 64 := (i 2).isLt
    have hlt : (i 0).val * 4 + (i 1).val / 512 < cfg1.N := by rw [show cfg1.N = 128 from N_1]; omega
    obtain ⟨-, -, -, -, -, -, -, -, -, -, e0, e1, e2⟩ := idx_facts ⟨(i 0).val * 4 + (i 1).val / 512, hlt⟩
    refine ⟨⟨(i 0).val * 4 + (i 1).val / 512, hlt⟩, flush1_3 _, ?_⟩
    rw [mem_blk]
    intro a
    match a with
    | ⟨0, _⟩ =>
      show win1_3.index ⟨(i 0).val * 4 + (i 1).val / 512, hlt⟩ (0 : Fin 3) * 1 ≤ (i 0).val
        ∧ (i 0).val < win1_3.index ⟨(i 0).val * 4 + (i 1).val / 512, hlt⟩ (0 : Fin 3) * 1 + 1
      rw [e0]; show ((i 0).val * 4 + (i 1).val / 512) / 4 * 1 ≤ (i 0).val ∧ (i 0).val < ((i 0).val * 4 + (i 1).val / 512) / 4 * 1 + 1; omega
    | ⟨1, _⟩ =>
      show win1_3.index ⟨(i 0).val * 4 + (i 1).val / 512, hlt⟩ (1 : Fin 3) * 512 ≤ (i 1).val
        ∧ (i 1).val < win1_3.index ⟨(i 0).val * 4 + (i 1).val / 512, hlt⟩ (1 : Fin 3) * 512 + 512
      rw [e1]; show ((i 0).val * 4 + (i 1).val / 512) % 4 * 512 ≤ (i 1).val ∧ (i 1).val < ((i 0).val * 4 + (i 1).val / 512) % 4 * 512 + 512; omega
    | ⟨2, _⟩ =>
      show win1_3.index ⟨(i 0).val * 4 + (i 1).val / 512, hlt⟩ (2 : Fin 3) * 64 ≤ (i 2).val
        ∧ (i 2).val < win1_3.index ⟨(i 0).val * 4 + (i 1).val / 512, hlt⟩ (2 : Fin 3) * 64 + 64
      rw [e2]; omega
end Final

end Cert.KernelIdeal.Region1
end
-- ==== Proof.Region2.lean ====
/-
  Region 2: the output projection, a matrix product with a bias row.

  The region's grid has 4 × 1 points; point i reads the 1024 rows of block i of the 4096×1024 left array, the whole
  1024×1024 right array and the whole 1×1024 bias row, multiplies the two matrices into a zero accumulator, adds the
  bias row to every row of the product and writes the 1024×1024 result to row block i of the 4096×1024 output. Entry
  (r, n) of the output is therefore written by the point r / 1024 and holds the sum over k of left(r, k) · right(k, n)
  plus bias(0, n): the whole array after the region is the biased matrix product of the arrays the region was entered with.
-/
import proofs.«154488_j75634374083254_2_alg».proof.Proof.KernelIdealFrame
import proofs.«154488_j75634374083254_2_alg».proof.Proof.Forms
import proofs.«154488_j75634374083254_2_alg».proof.Proof.LibPlainDot
import Idealize.ShloMosaic.Lib.Pipeline.Value
import Idealize.ShloMosaic.Lib.Tactic

set_option maxRecDepth 16384

noncomputable section

namespace Cert.KernelIdeal.Region2

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

theorem hz : (![0, 0] : Fin 2 → Nat) = fun _ => 0 := funext fun a => by fin_cases a <;> rfl

/-- The body's arithmetic at one entry: the product of the two loaded blocks into the zero accumulator, with the
    loaded 1×1024 row stretched over the rows and added, is at (p, q) the sum over k of left(p, k) · right(k, q)
    plus row(0, q). -/
theorem pay_apply (x0 x1 : FVec Ideal S1024x1024 .bf16) (x2 : FVec Ideal S1x1024 .f32) (p q : Fin 1024) :
    k2_pay1 (F := Ideal) x0 x1 x2 (ix2 p q)
      = (∑ k : Fin 1024, x0 (ix2 p k) * x1 (ix2 k q)) + x2 (ix2 (0 : Fin 1) q) := by
  have e0 : shapeCast S1024x1024 x0 shapeCasts_S1024x1024_S1024x1024 = x0 := shapeCast_self x0 _
  have e1 : shapeCast S1024x1024 x1 shapeCasts_S1024x1024_S1024x1024 = x1 := shapeCast_self x1 _
  have e2 : shapeCast S1x1024 x2 shapeCasts_S1x1024_S1x1024 = x2 := shapeCast_self x2 _
  unfold k2_pay1
  rw [e0, e1, e2]
  refine congrArg₂ (· + ·) (Cert.LibPlainDot.matmul_zero_apply _ rfl none x0 x1 p q)
    (broadcastTo_apply x2 broadcasts_S1x1024_S1024x1024 (ix2 p q) (ix2 (0 : Fin 1) q) fun a => ?_)
  match a with
  | ⟨0, _⟩ => rfl
  | ⟨1, _⟩ => rfl

/-- The printed index maps, decided once over the 4 grid points: the left operand's row block is the output's, every
    other block index of the inputs is 0, the output's column block is 0 and its row block stays below 4. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 3 ∧ win2_3.index t (1 : Fin 2) = 0 :=
  (by decide +kernel : ∀ t : Fin grid2.N, _)

/-- Every row block q0 of the 4 output blocks is some grid point's. -/
theorem idx_onto : ∀ (q0 : Fin 4), ∃ t : Fin cfg2.N, win2_3.index t = ![q0.val, 0] :=
  (by decide +kernel : ∀ (q0 : Fin 4), ∃ t : Fin grid2.N, win2_3.index t = ![q0.val, 0])

/-- One entry of what point `t` computes, over arbitrary arrays: the product of the left array's row block and the
    right array with the bias row added, at (p, q) of the block, is the whole biased product at the entry of the output
    array that (p, q) of point `t`'s output block names. -/
theorem point_eq (A : S4096x1024.Idx → EReal) (B : S1024x1024.Idx → EReal) (C : S1x1024.Idx → EReal)
    (t : Fin cfg2.N) (j : S1024x1024.Idx) :
    k2_pay1 (F := Ideal) (fun y => A (((cfg2.win 0).blk t).view.emb y)) (fun y => B (((cfg2.win 1).blk t).view.emb y))
        (fun y => C (((cfg2.win 2).blk t).view.emb y)) j
      = Cert.Forms.mmb A B C (((cfg2.win 3).blk t).view.emb j) := by
  obtain ⟨e00, e01, e10, e11, e20, e21, -, e31⟩ := idx_facts t
  obtain ⟨p, q, rfl⟩ : ∃ p q, j = ix2 p q := ⟨j 0, j 1, eq_ix2 j⟩
  rw [pay_apply]
  unfold Cert.Forms.mmb Cert.Forms.mm
  congr 1
  · refine Finset.sum_congr rfl fun k _ => ?_
    congr 1
    · refine congrArg A (funext fun a => Fin.ext ?_)
      match a with
      | ⟨0, _⟩ => show win2_0.index t (0 : Fin 2) * 1024 + 1 * p.val = win2_3.index t (0 : Fin 2) * 1024 + 1 * p.val; omega
      | ⟨1, _⟩ => show win2_0.index t (1 : Fin 2) * 1024 + 1 * k.val = k.val; omega
    · refine congrArg B (funext fun a => Fin.ext ?_)
      match a with
      | ⟨0, _⟩ => show win2_1.index t (0 : Fin 2) * 1024 + 1 * k.val = k.val; omega
      | ⟨1, _⟩ => show win2_1.index t (1 : Fin 2) * 1024 + 1 * q.val = win2_3.index t (1 : Fin 2) * 1024 + 1 * q.val; omega
  · refine congrArg C (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

variable (V : (c : Dev nD) → (b : Ref sig .tc) → Buf (Elt Ideal) ((c : Thread nD τ).loc b))

/-- What point `t` writes back is block `t` of the biased product of the arrays the region was entered with. -/
theorem flushed_eq (c : Dev nD) (t : Fin cfg2.N) :
    (GenP.dat2 V c).flushed 3 t
      = ((cfg2.win 3).blk t).view.read (Elt Ideal)
          (Cert.Forms.mmb (V c main_v24 : S4096x1024.Idx → EReal) (V c main_v5 : S1024x1024.Idx → EReal)
            (V c main_v6 : S1x1024.Idx → EReal)) := by
  show (cfg2.win 3).cut (grid2.coords t) ((GenP.dat2 V c).after 3 t) = _
  rw [GenP.after2_3]
  unfold GenP.out2_3
  rw [View.canon_unit_zero hz]
  simp only [View.ld_unit_zero (S := S1024x1024) hz, View.ld_unit_zero (S := S1x1024) hz]
  funext j
  exact point_eq (V c main_v24) (V c main_v5) (V c main_v6) t j

/-- An index of the output array is in point `t`'s block iff each coordinate is in the block's range on its axis. -/
theorem mem_blk (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v25).slice (win2_3.rect t)).set ↔ _
  rw [View.set_slice_whole, Rect.mem_set_unit]
  exact Iff.rfl

/-- Every entry (r, n) of the output array lies in the block of the point whose output row block is r / 1024. -/
theorem cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region is the biased matrix product of the arrays the region was entered with. -/
theorem final2 (c : Dev nD) :
    ((GenP.dat2 V c).arrAt 3 cfg2.N : S4096x1024.Idx → EReal)
      = Cert.Forms.mmb (V c main_v24 : S4096x1024.Idx → EReal) (V c main_v5 : S1024x1024.Idx → EReal)
          (V c main_v6 : S1x1024.Idx → EReal) :=
  (GenP.dat2 V c).arrAt_eq_of_cover 3 _ (fun t _ => flushed_eq V c t) cover

end Cert.KernelIdeal.Region2

end
-- ==== Proof.KernelChain.lean ====
/-
  The result buffer of the idealized kernel program, followed back through its segments to the argument arrays.

  After the last host stretch the result is the reshape of region 2's output array; that array is the product of the merged
  head outputs with the transposed output weight plus the bias row; the merged head outputs are a relayout of region 1's
  output array, which is the attention of every head of the three regrouped thirds of region 0's output array; and region
  0's output array is the product of the flattened input with the transposed projection weight. Every host stretch is read
  operation by operation; a buffer no operation and no region of a stretch writes is carried over unchanged.
-/
import proofs.«154488_j75634374083254_2_alg».proof.Proof.KernelIdealFrame
import proofs.«154488_j75634374083254_2_alg».proof.Proof.KernelForm
import proofs.«154488_j75634374083254_2_alg».proof.Proof.Region0
import proofs.«154488_j75634374083254_2_alg».proof.Proof.Region1
import proofs.«154488_j75634374083254_2_alg».proof.Proof.Region2
import Idealize.ShloMosaic.Lib.StableHlo.Run

set_option maxRecDepth 16384

noncomputable section

namespace Cert.KernelIdeal.Chain

open Cert.KernelIdeal Cert.KernelIdeal.Gen Cert.KernelIdeal.GenP Cert.KernelIdeal.Form
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- Region 0's first operand: the flattened input. -/
theorem V1_v1 : (V1 m ρ c main_v1 : S4096x1024.Idx → EReal) = kX (m ((c.tc : Thread nD τ).loc main_arg0)) := by
  show StableHlo.after hostOps0 (W0 m ρ c) (Proc.devRef .tc main_v1) = _
  after_results
  try rfl

/-- Region 0's second operand: the transposed projection weight. -/
theorem V1_v3 : (V1 m ρ c main_v3 : S1024x3072.Idx → EReal) = kW (m ((c.tc : Thread nD τ).loc main_arg1)) := by
  show StableHlo.after hostOps0 (W0 m ρ c) (Proc.devRef .tc main_v3) = _
  after_results
  try rfl

/-- Region 0's output array: the projection. -/
theorem W2_v7 : (W2 m ρ c (Proc.devRef .tc main_v7) : S4096x3072.Idx → EReal)
    = kQKV (m ((c.tc : Thread nD τ).loc main_arg0)) (m ((c.tc : Thread nD τ).loc main_arg1)) := by
  refine (W2_arr m ρ c 2).trans ((Region0.final0 (V1 m ρ) c).trans ?_)
  rw [V1_v1, V1_v3]
  rfl

/-- Region 1's operands: the three thirds of the projection regrouped by head. -/
theorem V3_v13 : (V3 m ρ c main_v13 : S32x2048x64.Idx → EReal)
    = kHead 0 Gen.slices_S4096x3072_S4096x1024_0_0 (W2 m ρ c (Proc.devRef .tc main_v7)) := by
  show StableHlo.after hostOps1 (W2 m ρ c) (Proc.devRef .tc main_v13) = _
  after_results
  try rfl
theorem V3_v16 : (V3 m ρ c main_v16 : S32x2048x64.Idx → EReal)
    = kHead 1024 Gen.slices_S4096x3072_S4096x1024_0_1024 (W2 m ρ c (Proc.devRef .tc main_v7)) := by
  show StableHlo.after hostOps1 (W2 m ρ c) (Proc.devRef .tc main_v16) = _
  after_results
  try rfl
theorem V3_v19 : (V3 m ρ c main_v19 : S32x2048x64.Idx → EReal)
    = kHead 2048 Gen.slices_S4096x3072_S4096x1024_0_2048 (W2 m ρ c (Proc.devRef .tc main_v7)) := by
  show StableHlo.after hostOps1 (W2 m ρ c) (Proc.devRef .tc main_v19) = _
  after_results
  try rfl

/-- Region 1's output array: every head's attention. -/
theorem W4_v20 : (W4 m ρ c (Proc.devRef .tc main_v20) : S32x2048x64.Idx → EReal)
    = kAttn (kQKV (m ((c.tc : Thread nD τ).loc main_arg0)) (m ((c.tc : Thread nD τ).loc main_arg1))) := by
  refine (W4_arr m ρ c 3).trans ((Region1.final1 (V3 m ρ) c).trans ?_)
  rw [V3_v13, V3_v16, V3_v19, W2_v7]
  rfl

/-- Region 2's operands: the merged head outputs, the transposed output weight (computed before region 0 and carried
    through regions 0 and 1 untouched), the bias row (likewise). -/
theorem V5_v24 : (V5 m ρ c main_v24 : S4096x1024.Idx → EReal) = kMerge (W4 m ρ c (Proc.devRef .tc main_v20)) := by
  show StableHlo.after hostOps2 (W4 m ρ c) (Proc.devRef .tc main_v24) = _
  after_results
  try rfl
theorem V5_v5 : (V5 m ρ c main_v5 : S1024x1024.Idx → EReal) = kWp (m ((c.tc : Thread nD τ).loc main_arg2)) := by
  show StableHlo.after hostOps2 (W4 m ρ c) (Proc.devRef .tc main_v5) = _
  after_results
  rw [W4_of_ne m ρ c main_v5 (by decide)]
  show StableHlo.after hostOps1 (W2 m ρ c) (Proc.devRef .tc main_v5) = _
  after_results
  rw [W2_of_ne m ρ c main_v5 (by decide)]
  show StableHlo.after hostOps0 (W0 m ρ c) (Proc.devRef .tc main_v5) = _
  after_results
  try rfl
theorem V5_v6 : (V5 m ρ c main_v6 : S1x1024.Idx → EReal) = kB (m ((c.tc : Thread nD τ).loc main_arg3)) := by
  show StableHlo.after hostOps2 (W4 m ρ c) (Proc.devRef .tc main_v6) = _
  after_results
  rw [W4_of_ne m ρ c main_v6 (by decide)]
  show StableHlo.after hostOps1 (W2 m ρ c) (Proc.devRef .tc main_v6) = _
  after_results
  rw [W2_of_ne m ρ c main_v6 (by decide)]
  show StableHlo.after hostOps0 (W0 m ρ c) (Proc.devRef .tc main_v6) = _
  after_results
  try rfl

/-- The result buffer after the run, as the kernel's function of the four argument arrays. -/
theorem result_eq : (W7 m ρ c (Proc.devRef .tc main_v26) : S2x2048x1024.Idx → EReal)
    = kOut (m ((c.tc : Thread nD τ).loc main_arg0)) (m ((c.tc : Thread nD τ).loc main_arg1))
        (m ((c.tc : Thread nD τ).loc main_arg2)) (m ((c.tc : Thread nD τ).loc main_arg3)) := by
  have h7 : (W7 m ρ c (Proc.devRef .tc main_v26) : S2x2048x1024.Idx → EReal)
      = kFinal (W6 m ρ c (Proc.devRef .tc main_v25)) := by
    show StableHlo.after hostOps3 (W6 m ρ c) (Proc.devRef .tc main_v26) = _
    after_results
    try rfl
  have h6 : (W6 m ρ c (Proc.devRef .tc main_v25) : S4096x1024.Idx → EReal)
      = Cert.Forms.mmb (V5 m ρ c main_v24 : S4096x1024.Idx → EReal) (V5 m ρ c main_v5 : S1024x1024.Idx → EReal)
          (V5 m ρ c main_v6 : S1x1024.Idx → EReal) :=
    (W6_arr m ρ c 3).trans (Region2.final2 (V5 m ρ) c)
  rw [h7, h6, V5_v24, V5_v5, V5_v6, W4_v20]
  rfl

end Cert.KernelIdeal.Chain

end
-- ==== Proof.RefValueA.lean ====
/-
  The reference program's layout stages read at an index.

  * The first product: entry (b, t, o) of x·wᵀ is the sum over k of x(b,t,k)·w(o,k).
  * Queries, keys and values: three column blocks of width 1024 of that product, each split row-major into
    16 heads of 64 features (feature c = h·64 + d) and transposed so that the head axis comes before the position axis.
  * The output: the attention result transposed back, flattened row-major (c = h·64 + d, so h = c / 64 and d = c % 64),
    multiplied by the second weight matrix and shifted by the bias row.
-/
import proofs.«154488_j75634374083254_2_alg».proof.Proof.Gen.ReferenceIdeal.Read
import proofs.«154488_j75634374083254_2_alg».proof.Proof.Forms

noncomputable section

open scoped BigOperators

namespace Cert.ReferenceIdeal.RefValue

open Cert.ReferenceIdeal Cert.ReferenceIdeal.Read Idealize.ShloMosaic Idealize.ShloMosaic.ValueIdx

/-- Entry (b, t, o) of the first product. -/
theorem qkv_apply (x0 : (⟨S2x2048x1024, .f32⟩ : BufTy).Contents (Elt Ideal)) (x1 : (⟨S3072x1024, .f32⟩ : BufTy).Contents (Elt Ideal))
    (b : Fin 2) (t : Fin 2048) (o : Fin 3072) :
    val_main_v0 x0 x1 (ix3 b t o) = ∑ k : Fin 1024, x0 (ix3 b t k) * x1 (ix2 o k) := by
  rw [val_main_v0_apply]
  refine Finset.sum_congr rfl fun k _ => ?_
  have el : lidx_main_v0 (ix3 b t o) k = ix3 b t k :=
    funext fun a => Fin.ext (by match a with | ⟨0, _⟩ => rfl | ⟨1, _⟩ => rfl | ⟨2, _⟩ => rfl)
  have er : ridx_main_v0 (ix3 b t o) k = ix2 o k :=
    funext fun a => Fin.ext (by match a with | ⟨0, _⟩ => rfl | ⟨1, _⟩ => rfl)
  rw [el, er]

/-- Row-major position of (b, t, h, d) in a 2×2048×16×64 array, read back as (b, t, c) in a 2×2048×1024 one. -/
theorem split_b (b t h d : Nat) (hb : b < 2) (ht : t < 2048) (hh : h < 16) (hd : d < 64) :
    (((b * 2048 + t) * 16 + h) * 64 + d) / 2097152 = b := by omega
theorem split_t (b t h d : Nat) (hb : b < 2) (ht : t < 2048) (hh : h < 16) (hd : d < 64) :
    (((b * 2048 + t) * 16 + h) * 64 + d) / 1024 % 2048 = t := by omega
theorem split_c (b t h d : Nat) (hb : b < 2) (ht : t < 2048) (hh : h < 16) (hd : d < 64) :
    (((b * 2048 + t) * 16 + h) * 64 + d) % 1024 = h * 64 + d := by omega

/-- The reshape-and-transpose of a 2×2048×1024 block to heads reads the block at (b, t, h·64 + d). -/
theorem heads_idx (b : Fin 2) (h : Fin 16) (t : Fin 2048) (d : Fin 64) :
    idx_main_v4 (idx_main_v5 (ix4 b h t d)) = ix3 b t (⟨h.val * 64 + d.val, by omega⟩ : Fin 1024) :=
  funext fun a => Fin.ext (by
    match a with
    | ⟨0, _⟩ => exact split_b b.val t.val h.val d.val b.isLt t.isLt h.isLt d.isLt
    | ⟨1, _⟩ => exact split_t b.val t.val h.val d.val b.isLt t.isLt h.isLt d.isLt
    | ⟨2, _⟩ => exact split_c b.val t.val h.val d.val b.isLt t.isLt h.isLt d.isLt)

/-- Queries: column block 0. -/
theorem q_apply (x0 : (⟨S2x2048x1024, .f32⟩ : BufTy).Contents (Elt Ideal)) (x1 : (⟨S3072x1024, .f32⟩ : BufTy).Contents (Elt Ideal))
    (b : Fin 2) (h : Fin 16) (t : Fin 2048) (d : Fin 64) :
    val_main_v5 x0 x1 (ix4 b h t d) = val_main_v0 x0 x1 (ix3 b t (⟨h.val * 64 + d.val, by omega⟩ : Fin 3072)) := by
  rw [val_main_v5_apply, val_main_v4_apply, val_main_v1_apply, heads_idx]
  exact congrArg (val_main_v0 x0 x1) (funext fun a => Fin.ext (by match a with | ⟨0, _⟩ => rfl | ⟨1, _⟩ => rfl | ⟨2, _⟩ => rfl))

/-- Keys: column block 1. -/
theorem k_apply (x0 : (⟨S2x2048x1024, .f32⟩ : BufTy).Contents (Elt Ideal)) (x1 : (⟨S3072x1024, .f32⟩ : BufTy).Contents (Elt Ideal))
    (b : Fin 2) (h : Fin 16) (t : Fin 2048) (d : Fin 64) :
    val_main_v7 x0 x1 (ix4 b h t d) = val_main_v0 x0 x1 (ix3 b t (⟨1024 + (h.val * 64 + d.val), by omega⟩ : Fin 3072)) := by
  rw [val_main_v7_apply, val_main_v6_apply, val_main_v2_apply]
  rw [show idx_main_v6 (idx_main_v7 (ix4 b h t d)) = ix3 b t (⟨h.val * 64 + d.val, by omega⟩ : Fin 1024) from heads_idx b h t d]
  exact congrArg (val_main_v0 x0 x1) (funext fun a => Fin.ext (by match a with | ⟨0, _⟩ => rfl | ⟨1, _⟩ => rfl | ⟨2, _⟩ => rfl))

/-- Values: column block 2. -/
theorem v_apply (x0 : (⟨S2x2048x1024, .f32⟩ : BufTy).Contents (Elt Ideal)) (x1 : (⟨S3072x1024, .f32⟩ : BufTy).Contents (Elt Ideal))
    (b : Fin 2) (h : Fin 16) (t : Fin 2048) (d : Fin 64) :
    val_main_v9 x0 x1 (ix4 b h t d) = val_main_v0 x0 x1 (ix3 b t (⟨2048 + (h.val * 64 + d.val), by omega⟩ : Fin 3072)) := by
  rw [val_main_v9_apply, val_main_v8_apply, val_main_v3_apply]
  rw [show idx_main_v8 (idx_main_v9 (ix4 b h t d)) = ix3 b t (⟨h.val * 64 + d.val, by omega⟩ : Fin 1024) from heads_idx b h t d]
  exact congrArg (val_main_v0 x0 x1) (funext fun a => Fin.ext (by match a with | ⟨0, _⟩ => rfl | ⟨1, _⟩ => rfl | ⟨2, _⟩ => rfl))

theorem merge_b (b t k : Nat) (hb : b < 2) (ht : t < 2048) (hk : k < 1024) :
    ((b * 2048 + t) * 1024 + k) / 2097152 = b := by omega
theorem merge_t (b t k : Nat) (hb : b < 2) (ht : t < 2048) (hk : k < 1024) :
    ((b * 2048 + t) * 1024 + k) / 1024 % 2048 = t := by omega
theorem merge_h (b t k : Nat) (hb : b < 2) (ht : t < 2048) (hk : k < 1024) :
    ((b * 2048 + t) * 1024 + k) / 64 % 16 = k / 64 := by omega
theorem merge_d (b t k : Nat) (hb : b < 2) (ht : t < 2048) (hk : k < 1024) :
    ((b * 2048 + t) * 1024 + k) % 64 = k % 64 := by omega

/-- The transpose-and-flatten back reads the attention result at (b, c / 64, t, c % 64). -/
theorem merge_idx (b : Fin 2) (t : Fin 2048) (k : Fin 1024) :
    idx_main_v29 (idx_main_v30 (ix3 b t k))
      = ix4 b (⟨k.val / 64, by omega⟩ : Fin 16) t (⟨k.val % 64, by omega⟩ : Fin 64) :=
  funext fun a => Fin.ext (by
    match a with
    | ⟨0, _⟩ => exact merge_b b.val t.val k.val b.isLt t.isLt k.isLt
    | ⟨1, _⟩ => exact merge_h b.val t.val k.val b.isLt t.isLt k.isLt
    | ⟨2, _⟩ => exact merge_t b.val t.val k.val b.isLt t.isLt k.isLt
    | ⟨3, _⟩ => exact merge_d b.val t.val k.val b.isLt t.isLt k.isLt)

/-- Entry (b, t, o) of the output. -/
theorem out_apply (x0 : (⟨S2x2048x1024, .f32⟩ : BufTy).Contents (Elt Ideal)) (x1 : (⟨S3072x1024, .f32⟩ : BufTy).Contents (Elt Ideal))
    (x2 : (⟨S1024x1024, .f32⟩ : BufTy).Contents (Elt Ideal)) (x3 : (⟨S1024, .f32⟩ : BufTy).Contents (Elt Ideal))
    (b : Fin 2) (t : Fin 2048) (o : Fin 1024) :
    val_main_v34 x0 x1 x2 x3 (ix3 b t o)
      = (∑ k : Fin 1024, val_main_v28 x0 x1 (ix4 b (⟨k.val / 64, by omega⟩ : Fin 16) t (⟨k.val % 64, by omega⟩ : Fin 64)) * x2 (ix2 o k))
        + x3 (ix1 o) := by
  rw [val_main_v34_apply]
  rw [val_main_v31_apply]
  rw [val_main_v33_apply]
  rw [val_main_v32_apply]
  rw [Ideal.addf_def]
  refine congr (congrArg _ ?_) ?_
  · refine Finset.sum_congr rfl fun k _ => ?_
    have el : lidx_main_v31 (ix3 b t o) k = ix3 b t k :=
      funext fun a => Fin.ext (by match a with | ⟨0, _⟩ => rfl | ⟨1, _⟩ => rfl | ⟨2, _⟩ => rfl)
    have er : ridx_main_v31 (ix3 b t o) k = ix2 o k :=
      funext fun a => Fin.ext (by match a with | ⟨0, _⟩ => rfl | ⟨1, _⟩ => rfl)
    rw [el, er, val_main_v30_apply, val_main_v29_apply, merge_idx]
  · exact congrArg x3 (funext fun a => Fin.ext (by match a with | ⟨0, _⟩ => rfl))

end Cert.ReferenceIdeal.RefValue

end
-- ==== Proof.RefValueB.lean ====
/-
  The reference program's attention stages read at an index, head by head.

  For batch b and head h write Q, K, V for the 2048×64 tables of that head's queries, keys and values, and c for the
  scale constant. Reading the program's stages at (b, h, t, s) or (b, h, t):

  * the causal mask is the bit of s ≤ t (a row iota compared, signed, with a column iota; both below 2048);
  * the masked score is (∑ e, Q t e · K s e) · c where s ≤ t and -∞ elsewhere;
  * the row maximum is the fold of max from -∞ over the row's masked scores (a further max with -∞ changes nothing);
  * the weight is exp (masked score - row maximum), the denominator 0 + the row's sum of weights;
  * the result at (b, h, t, d) is ∑ s, (weight / denominator) · V s d.
-/
import proofs.«154488_j75634374083254_2_alg».proof.Proof.Gen.ReferenceIdeal.Read
import proofs.«154488_j75634374083254_2_alg».proof.Proof.Forms

noncomputable section

open scoped BigOperators

namespace Cert.ReferenceIdeal.RefValue

open Cert.ReferenceIdeal Cert.ReferenceIdeal.Read Idealize.ShloMosaic Idealize.ShloMosaic.ValueIdx

/-! ## Words and constants -/

/-- A number below 2048, as a 32-bit word, reads signed as itself. -/
theorem toInt_ofNat_lt (n : Nat) (h : n < 2048) : (BitVec.ofNat 32 n).toInt = (n : Int) := by
  have e := BitVec.toInt_eq_toNat_cond (BitVec.ofNat 32 n)
  rw [BitVec.toNat_ofNat] at e
  omega

/-- The word 0xFF800000 is -∞. -/
theorem negInf_eq_bot : Ideal.ofBits .f32 0xFF800000#32 = (⊥ : EReal) := by simp [Ideal.ofBits, Ideal.ieee]

/-! ## The mask -/

/-- The lower-triangular mask at (t, s) is the bit of s ≤ t. -/
theorem tril_apply (t s : Fin 2048) :
    val_main_v14 (F := Ideal) (ix2 t s) = if s.val ≤ t.val then 1#1 else 0#1 := by
  rw [val_main_v14_apply, val_main_call0_v4_apply, val_main_call0_v2_apply, val_main_call0_v0_apply,
    val_main_call0_v1_apply, val_main_call0_c_apply, val_main_call0_v3_apply, val_main_v13_apply, val_main_c_apply,
    val_main_call0_v5_apply, val_main_call0_c_0_apply]
  have key : IntOp.cmpi .sge (IntOp.addi (BitVec.ofNat 32 t.val) 0#32) (BitVec.ofNat 32 s.val) = 1#1 ↔ s.val ≤ t.val := by
    rw [IntOp.cmpi_sge]
    show (BitVec.ofNat 32 s.val).toInt ≤ (BitVec.ofNat 32 t.val + 0#32).toInt ↔ _
    rw [BitVec.add_zero, toInt_ofNat_lt _ s.isLt, toInt_ofNat_lt _ t.isLt]
    exact Int.ofNat_le
  show Scalar.select (IntOp.cmpi .sge (IntOp.addi (BitVec.ofNat 32 t.val) 0#32) (BitVec.ofNat 32 s.val)) 1#1 0#1 = _
  by_cases hst : s.val ≤ t.val
  · rw [if_pos hst, key.2 hst, select_one]
  · rw [if_neg hst, eq_zero_of_ne_one (fun e => hst (key.1 e)), select_zero]

/-! ## One head's tables -/

variable (x0 : (⟨S2x2048x1024, .f32⟩ : BufTy).Contents (Elt Ideal)) (x1 : (⟨S3072x1024, .f32⟩ : BufTy).Contents (Elt Ideal))

/-- Head (b, h)'s queries, keys and values as 2048×64 tables. -/
abbrev qT (b : Fin 2) (h : Fin 16) : Fin 2048 → Fin 64 → EReal := fun t d => val_main_v5 x0 x1 (ix4 b h t d)
abbrev kT (b : Fin 2) (h : Fin 16) : Fin 2048 → Fin 64 → EReal := fun s d => val_main_v7 x0 x1 (ix4 b h s d)
abbrev vT (b : Fin 2) (h : Fin 16) : Fin 2048 → Fin 64 → EReal := fun s d => val_main_v9 x0 x1 (ix4 b h s d)

local notation "c8" => (Ideal.ofBits FTy.f32 0x41000000#32 : EReal)

/-- The masked score at (b, h, t, s). -/
theorem masked_apply (b : Fin 2) (h : Fin 16) (t s : Fin 2048) :
    val_main_v16 x0 x1 (ix4 b h t s) = Cert.Forms.masked c8 (qT x0 x1 b h) (kT x0 x1 b h) t s := by
  have ei : idx_main_v15 (idx_main_call1_v1 (ix4 b h t s)) = ix2 t s :=
    funext fun a => Fin.ext (by match a with | ⟨0, _⟩ => rfl | ⟨1, _⟩ => rfl)
  rw [val_main_v16_apply, val_main_call1_v1_apply, val_main_v15_apply, ei, tril_apply,
    val_main_call1_v2_apply, val_main_call1_v0_apply, val_main_cst_0_apply, val_main_v12_apply, val_main_v10_apply,
    val_main_v11_apply, val_main_cst_apply]
  simp only [Ideal.ofBits_def, Ideal.mulf_def]
  rw [negInf_eq_bot]
  unfold Cert.Forms.masked Cert.Forms.score
  by_cases hst : s.val ≤ t.val
  · rw [if_pos hst, if_pos hst, select_one]
    refine congrArg (· * c8) (Finset.sum_congr rfl fun e _ => ?_)
    have el : lidx_main_v10 (ix4 b h t s) e = ix4 b h t e :=
      funext fun a => Fin.ext (by match a with | ⟨0, _⟩ => rfl | ⟨1, _⟩ => rfl | ⟨2, _⟩ => rfl | ⟨3, _⟩ => rfl)
    have er : ridx_main_v10 (ix4 b h t s) e = ix4 b h s e :=
      funext fun a => Fin.ext (by match a with | ⟨0, _⟩ => rfl | ⟨1, _⟩ => rfl | ⟨2, _⟩ => rfl | ⟨3, _⟩ => rfl)
    rw [el, er]
  · rw [if_neg hst, if_neg hst, select_zero]

/-! ## The row maximum -/

/-- The row index (b, h, t) with column k put back is (b, h, t, k). -/
theorem lift_row (hr : S2x16x2048x2048.Reduces [3] S2x16x2048) (b : Fin 2) (h : Fin 16) (t : Fin 2048)
    (k : Fin (S2x16x2048x2048.size 3)) : hr.lift (ix3 b h t) k = ix4 b h t (⟨k.val, k.isLt⟩ : Fin 2048) := by
  funext c; apply Fin.ext
  fin_cases c <;> rfl

/-- The row maximum at (b, h, t). -/
theorem rowmax_apply (b : Fin 2) (h : Fin 16) (t : Fin 2048) :
    val_main_v19 x0 x1 (ix3 b h t) = Cert.Forms.rowMax c8 (qT x0 x1 b h) (kT x0 x1 b h) t := by
  have hr : S2x16x2048x2048.Reduces [3] S2x16x2048 := by decide
  rw [val_main_v19_apply, val_main_v18_apply, val_main_cst_2_apply]
  simp only [Ideal.ofBits_def, Ideal.maximumf_def]
  rw [negInf_eq_bot, max_eq_right bot_le]
  unfold val_main_v17
  rw [Host.reduce_eq_fold_single FloatOps.maximumf _ _ _ hr _]
  have hf : (val_main_v16 x0 x1 ∘ hr.lift (ix3 b h t)) = fun s : Fin 2048 => Cert.Forms.masked c8 (qT x0 x1 b h) (kT x0 x1 b h) t s :=
    funext fun s => by
      show val_main_v16 x0 x1 (hr.lift (ix3 b h t) s) = _
      rw [lift_row hr b h t s]
      exact masked_apply x0 x1 b h t _
  rw [hf, val_main_cst_1_apply]
  simp only [Ideal.ofBits_def]
  rw [negInf_eq_bot]
  rfl

/-! ## Weights, denominator, result -/

/-- The weight at (b, h, t, s). -/
theorem expw_apply (b : Fin 2) (h : Fin 16) (t s : Fin 2048) :
    val_main_v23 x0 x1 (ix4 b h t s) = Cert.Forms.expw c8 (qT x0 x1 b h) (kT x0 x1 b h) t s := by
  have ei : idx_main_v20 (idx_main_v21 (ix4 b h t s)) = ix3 b h t :=
    funext fun a => Fin.ext (by match a with | ⟨0, _⟩ => rfl | ⟨1, _⟩ => rfl | ⟨2, _⟩ => rfl)
  rw [val_main_v23_apply, val_main_v22_apply, val_main_v21_apply, val_main_v20_apply, ei, rowmax_apply, masked_apply]
  simp only [Ideal.hostUnary_exp_def, Ideal.subf_def]
  rfl

/-- The denominator at (b, h, t). -/
theorem denom_apply (b : Fin 2) (h : Fin 16) (t : Fin 2048) :
    val_main_v24 x0 x1 (ix3 b h t) = Cert.Forms.denom c8 (qT x0 x1 b h) (kT x0 x1 b h) t := by
  rw [val_main_v24_apply, val_main_cst_3_apply]
  simp only [Ideal.ofBits_def]
  rw [Ideal.ofBits_zero_f32, zero_add]
  unfold Cert.Forms.denom
  refine Finset.sum_congr rfl fun s _ => ?_
  have ei : idx_main_v24 (ix3 b h t) s = ix4 b h t s :=
    funext fun a => Fin.ext (by match a with | ⟨0, _⟩ => rfl | ⟨1, _⟩ => rfl | ⟨2, _⟩ => rfl | ⟨3, _⟩ => rfl)
  rw [ei, expw_apply]

/-- The attention result at (b, h, t, d), over the head's tables. -/
theorem attn_tables (b : Fin 2) (h : Fin 16) (t : Fin 2048) (d : Fin 64) :
    val_main_v28 x0 x1 (ix4 b h t d)
      = Cert.Forms.attnR c8 (qT x0 x1 b h) (kT x0 x1 b h) (vT x0 x1 b h) t d := by
  rw [val_main_v28_apply]
  unfold Cert.Forms.attnR
  refine Finset.sum_congr rfl fun s _ => ?_
  have el : lidx_main_v28 (ix4 b h t d) s = ix4 b h t s :=
    funext fun a => Fin.ext (by match a with | ⟨0, _⟩ => rfl | ⟨1, _⟩ => rfl | ⟨2, _⟩ => rfl | ⟨3, _⟩ => rfl)
  have er : ridx_main_v28 (ix4 b h t d) s = ix4 b h s d :=
    funext fun a => Fin.ext (by match a with | ⟨0, _⟩ => rfl | ⟨1, _⟩ => rfl | ⟨2, _⟩ => rfl | ⟨3, _⟩ => rfl)
  have ei : idx_main_v25 (idx_main_v26 (ix4 b h t s)) = ix3 b h t :=
    funext fun a => Fin.ext (by match a with | ⟨0, _⟩ => rfl | ⟨1, _⟩ => rfl | ⟨2, _⟩ => rfl)
  rw [el, er, val_main_v27_apply, val_main_v26_apply, val_main_v25_apply, ei, denom_apply, expw_apply]
  simp only [Ideal.hostDivf_def]

/-- The attention result at (b, h, t, d): the softmax form of attention over head (b, h)'s queries, keys and values. -/
theorem attn_apply (x0 : (⟨S2x2048x1024, .f32⟩ : BufTy).Contents (Elt Ideal)) (x1 : (⟨S3072x1024, .f32⟩ : BufTy).Contents (Elt Ideal))
    (b : Fin 2) (h : Fin 16) (t : Fin 2048) (d : Fin 64) :
    val_main_v28 x0 x1 (ix4 b h t d)
      = Cert.Forms.attnR (Ideal.ofBits .f32 0x41000000#32) (fun t d => val_main_v5 x0 x1 (ix4 b h t d))
          (fun s d => val_main_v7 x0 x1 (ix4 b h s d)) (fun s d => val_main_v9 x0 x1 (ix4 b h s d)) t d :=
  attn_tables x0 x1 b h t d

end Cert.ReferenceIdeal.RefValue

end
-- ==== Proof.RefValue.lean ====
/-
  The reference program read at an index: the layout stages (the first product, the heads' queries, keys and values, the
  output product with its bias) and the attention stage (one head's softmax attention over its tables).
-/
import proofs.«154488_j75634374083254_2_alg».proof.Proof.RefValueA
import proofs.«154488_j75634374083254_2_alg».proof.Proof.RefValueB
-- ==== Proof.LibDenseAttention.lean ====
/-
  Dense masked attention on the extended reals, in the spellings a fused kernel and a gather/scatter
  reference give it. Every entry is a real number read in the extended reals; the lemmas say that the
  two spellings are one number.

  * a finite sum of reals is the sum of the summands read in the extended reals (`coe_sum`);
  * a matrix product whose operands are split into a high part `v` and a low part `v - v` is the plain
    product: the low parts are zero (`split3`);
  * the attention-weighted sum `Σ i, h i * (p i / d)` is `(Σ i, p i * h i) * (1 / d)` and also
    `Σ i, (p i * (1 / d)) * h i`, for a nonzero real `d` (`weighted_quotient`, `weighted_scaled`);
  * contracting with the column sums of a row group is the sum over the group of the contractions
    (`rowgroup_contract`);
  * a sum over `H * n` rows in which only the rows of block `q` are kept is the sum over that block
    (`sum_block_select`): the block-diagonal operands of a batched per-head contraction.
-/
import Idealize.ShloMosaic.PureOps.Ideal
import Mathlib.Algebra.BigOperators.Fin
import Mathlib.Logic.Equiv.Fin.Basic
import Mathlib.Tactic.Ring

noncomputable section

namespace Cert.Lib.DenseAttention

open Idealize.ShloMosaic

/-- A finite sum of reals, read in the extended reals, is the sum of its summands read there. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The low part of a real split against itself is zero. -/
theorem coe_sub_self (x : ℝ) : (x : EReal) - (x : EReal) = 0 := by
  rw [← EReal.coe_sub, sub_self, EReal.coe_zero]

/-- A contraction of real operands split as high part plus low part `v - v`, with the low-by-low term
    dropped, is the plain contraction: both low parts are zero. -/
theorem split3 {ι : Type*} (s : Finset ι) (a b : ι → ℝ) :
    (∑ i ∈ s, (a i : EReal) * (b i : EReal))
      + (∑ i ∈ s, (a i : EReal) * ((b i : EReal) - (b i : EReal)))
      + (∑ i ∈ s, ((a i : EReal) - (a i : EReal)) * (b i : EReal))
    = ∑ i ∈ s, (a i : EReal) * (b i : EReal) := by
  simp only [coe_sub_self, mul_zero, zero_mul, Finset.sum_const_zero, add_zero]

/-- The quotient of one by a nonzero real is the real reciprocal. -/
theorem div_one_coe {d : ℝ} (hd : d ≠ 0) : Ideal.div 1 (d : EReal) = ((1 / d : ℝ) : EReal) := by
  rw [Ideal.div_coe hd, one_mul]

/-- The attention-weighted sum with each weight divided by the normaliser is the unnormalised
    weighted sum times the normaliser's reciprocal. -/
theorem weighted_quotient {ι : Type*} (s : Finset ι) (p h : ι → ℝ) {d : ℝ} (hd : d ≠ 0) :
    ∑ i ∈ s, (h i : EReal) * Ideal.div (p i : EReal) (d : EReal)
      = (∑ i ∈ s, (p i : EReal) * (h i : EReal)) * Ideal.div 1 (d : EReal) := by
  have e1 : ∀ i, (h i : EReal) * Ideal.div (p i : EReal) (d : EReal)
      = ((h i * (p i * (1 / d)) : ℝ) : EReal) := by
    intro i; rw [Ideal.div_coe hd, EReal.coe_mul, EReal.coe_mul]
  have e2 : ∀ i, (p i : EReal) * (h i : EReal) = ((p i * h i : ℝ) : EReal) :=
    fun i => (EReal.coe_mul _ _).symm
  simp only [e1, e2]
  rw [div_one_coe hd, ← coe_sum, ← coe_sum, ← EReal.coe_mul, Finset.sum_mul]
  exact congrArg _ (Finset.sum_congr rfl fun i _ => by ring)

/-- The same weighted sum with each weight scaled by a real factor first. -/
theorem weighted_scaled {ι : Type*} (s : Finset ι) (p h : ι → ℝ) (r : ℝ) :
    ∑ i ∈ s, ((p i : EReal) * (r : EReal)) * (h i : EReal)
      = (∑ i ∈ s, (p i : EReal) * (h i : EReal)) * (r : EReal) := by
  have e1 : ∀ i, ((p i : EReal) * (r : EReal)) * (h i : EReal) = ((p i * r * h i : ℝ) : EReal) := by
    intro i; rw [EReal.coe_mul, EReal.coe_mul]
  have e2 : ∀ i, (p i : EReal) * (h i : EReal) = ((p i * h i : ℝ) : EReal) :=
    fun i => (EReal.coe_mul _ _).symm
  simp only [e1, e2]
  rw [← coe_sum, ← coe_sum, ← EReal.coe_mul, Finset.sum_mul]
  exact congrArg _ (Finset.sum_congr rfl fun i _ => by ring)

/-- Contracting a vector with the column sums of a group of rows is the sum, over the rows of the
    group, of the contractions with each row. -/
theorem rowgroup_contract {δ κ : Type*} (sd : Finset δ) (sk : Finset κ) (W : δ → κ → ℝ) (e : κ → ℝ) :
    ∑ k ∈ sk, (∑ d ∈ sd, (W d k : EReal)) * (e k : EReal)
      = ∑ d ∈ sd, ∑ k ∈ sk, (e k : EReal) * (W d k : EReal) := by
  have e1 : ∀ k, (∑ d ∈ sd, (W d k : EReal)) * (e k : EReal) = (((∑ d ∈ sd, W d k) * e k : ℝ) : EReal) := by
    intro k; rw [EReal.coe_mul, coe_sum]
  have e2 : ∀ d k, (e k : EReal) * (W d k : EReal) = ((e k * W d k : ℝ) : EReal) :=
    fun d k => (EReal.coe_mul _ _).symm
  simp only [e1, e2]
  simp only [← coe_sum]
  refine congrArg _ ?_
  rw [Finset.sum_comm]
  refine Finset.sum_congr rfl fun k _ => ?_
  rw [Finset.sum_mul]
  exact Finset.sum_congr rfl fun d _ => by ring

/-- Row `q * n + i` of `H` blocks of `n` rows. -/
theorem block_lt {H n q i : ℕ} (hq : q < H) (hi : i < n) : q * n + i < H * n :=
  calc q * n + i < q * n + n := Nat.add_lt_add_left hi _
    _ = (q + 1) * n := (Nat.succ_mul q n).symm
    _ ≤ H * n := Nat.mul_le_mul_right n hq

/-- A sum over `H * n` rows that keeps only the rows whose block number is `q` is the sum over the
    `n` rows of block `q`. -/
theorem sum_block_select {M : Type*} [AddCommMonoid M] (H n q : ℕ) (hq : q < H) (f : Fin (H * n) → M) :
    ∑ r : Fin (H * n), (if r.val / n = q then f r else 0)
      = ∑ i : Fin n, f ⟨q * n + i.val, block_lt hq i.isLt⟩ := by
  classical
  rcases Nat.eq_zero_or_pos n with rfl | hn
  · simp
  rw [← (finProdFinEquiv (m := H) (n := n)).sum_comp, Fintype.sum_prod_type]
  have hdiv : ∀ (a : Fin H) (b : Fin n), (finProdFinEquiv (a, b)).val / n = a.val := by
    intro a b
    show (b.val + n * a.val) / n = a.val
    rw [Nat.add_mul_div_left _ _ hn, Nat.div_eq_of_lt b.isLt, Nat.zero_add]
  simp only [hdiv]
  rw [Finset.sum_eq_single (⟨q, hq⟩ : Fin H)]
  · refine Finset.sum_congr rfl fun b _ => ?_
    rw [if_pos (rfl : (⟨q, hq⟩ : Fin H).val = q)]
    refine congrArg f (Fin.ext ?_)
    show b.val + n * q = q * n + b.val
    rw [Nat.mul_comm, Nat.add_comm]
  · intro a _ ha
    have : a.val ≠ q := fun h => ha (Fin.ext h)
    simp only [if_neg this, Finset.sum_const_zero]
  · intro h; exact absurd (Finset.mem_univ _) h

end Cert.Lib.DenseAttention

end
-- ==== Proof.RealTables.lean ====
/-
  On real inputs the reference's query, key and value tables are real.

  Every entry of the first product is a finite sum of products of two entries of the inputs; when all input entries
  are real numbers read in the extended reals, each product is a real product and the finite sum is a real sum, so
  the entry is real. The three head tables are re-indexings of that product, so their entries are real too.
-/
import proofs.«154488_j75634374083254_2_alg».proof.Proof.RefValueA
import proofs.«154488_j75634374083254_2_alg».proof.Proof.LibDenseAttention

noncomputable section

open scoped BigOperators

namespace Cert.ReferenceIdeal.RefValue

open Cert.ReferenceIdeal Cert.ReferenceIdeal.Read Idealize.ShloMosaic Idealize.ShloMosaic.ValueIdx

/-- Entry (b, t, o) of the first product of real inputs is the real number ∑ₖ x(b,t,k)·w(o,k). -/
theorem qkv_real (x0 : (⟨S2x2048x1024, .f32⟩ : BufTy).Contents (Elt Ideal)) (x1 : (⟨S3072x1024, .f32⟩ : BufTy).Contents (Elt Ideal))
    (h0 : ∀ i, ∃ r : ℝ, x0 i = (r : EReal)) (h1 : ∀ i, ∃ r : ℝ, x1 i = (r : EReal))
    (b : Fin 2) (t : Fin 2048) (o : Fin 3072) : ∃ r : ℝ, val_main_v0 x0 x1 (ix3 b t o) = (r : EReal) := by
  choose f hf using h0
  choose g hg using h1
  refine ⟨∑ k : Fin 1024, f (ix3 b t k) * g (ix2 o k), ?_⟩
  rw [qkv_apply, Cert.Lib.DenseAttention.coe_sum]
  refine Finset.sum_congr rfl fun k _ => ?_
  rw [hf, hg, EReal.coe_mul]

/-- Queries of real inputs are real: an entry of column block 0 of the first product. -/
theorem q_real (x0 : (⟨S2x2048x1024, .f32⟩ : BufTy).Contents (Elt Ideal)) (x1 : (⟨S3072x1024, .f32⟩ : BufTy).Contents (Elt Ideal))
    (h0 : ∀ i, ∃ r : ℝ, x0 i = (r : EReal)) (h1 : ∀ i, ∃ r : ℝ, x1 i = (r : EReal))
    (b : Fin 2) (h : Fin 16) (t : Fin 2048) (d : Fin 64) : ∃ r : ℝ, val_main_v5 x0 x1 (ix4 b h t d) = (r : EReal) := by
  rw [q_apply]
  exact qkv_real x0 x1 h0 h1 b t _

/-- Keys of real inputs are real: an entry of column block 1 of the first product. -/
theorem k_real (x0 : (⟨S2x2048x1024, .f32⟩ : BufTy).Contents (Elt Ideal)) (x1 : (⟨S3072x1024, .f32⟩ : BufTy).Contents (Elt Ideal))
    (h0 : ∀ i, ∃ r : ℝ, x0 i = (r : EReal)) (h1 : ∀ i, ∃ r : ℝ, x1 i = (r : EReal))
    (b : Fin 2) (h : Fin 16) (t : Fin 2048) (d : Fin 64) : ∃ r : ℝ, val_main_v7 x0 x1 (ix4 b h t d) = (r : EReal) := by
  rw [k_apply]
  exact qkv_real x0 x1 h0 h1 b t _

/-- Values of real inputs are real: an entry of column block 2 of the first product. -/
theorem v_real (x0 : (⟨S2x2048x1024, .f32⟩ : BufTy).Contents (Elt Ideal)) (x1 : (⟨S3072x1024, .f32⟩ : BufTy).Contents (Elt Ideal))
    (h0 : ∀ i, ∃ r : ℝ, x0 i = (r : EReal)) (h1 : ∀ i, ∃ r : ℝ, x1 i = (r : EReal))
    (b : Fin 2) (h : Fin 16) (t : Fin 2048) (d : Fin 64) : ∃ r : ℝ, val_main_v9 x0 x1 (ix4 b h t d) = (r : EReal) := by
  rw [v_apply]
  exact qkv_real x0 x1 h0 h1 b t _

end Cert.ReferenceIdeal.RefValue

end
-- ==== Proof.Softmax.lean ====
/-
  One-division attention equals softmax attention on finite data.

  For a row t of one head: every masked score is a real number or -∞, so it lies strictly below +∞; the position
  s = t is visible from t, so its masked score is a real number. The row maximum, a fold of max from -∞, is the
  supremum of the masked scores: it is at least the score at s = t and strictly below +∞, hence a real number M.
  A masked score less M is then a real number or -∞, and its exponential is a nonnegative real number (zero at -∞).
  The denominator is a finite sum of nonnegative reals one of whose terms, the one at s = t, is positive: it is a
  nonzero real L. Division by L is multiplication by the real 1/L, and the claim is distributivity of that
  multiplication over a finite real sum.

  The product of two arrays of reals is an array of reals, and the single-precision word of the scale is a real.
-/
import proofs.«154488_j75634374083254_2_alg».proof.Proof.Forms
import proofs.«154488_j75634374083254_2_alg».proof.Proof.LibDenseAttention

noncomputable section

open scoped BigOperators

namespace Cert.Forms

open Idealize.ShloMosaic Idealize.ShloMosaic.ValueIdx Cert.Lib.DenseAttention

/-- A fold of max from -∞ over entries all below +∞, one of which is above -∞, is a real number. -/
theorem foldMax_real {T : Nat} (f : Fin T → EReal) (hlt : ∀ s, f s < ⊤) (t : Fin T) (ht : ⊥ < f t) :
    ∃ M : ℝ, (Finset.univ : Finset (Fin T)).fold max ⊥ f = (M : EReal) := by
  have hsup : (Finset.univ : Finset (Fin T)).fold max ⊥ f = Finset.univ.sup f := rfl
  rw [hsup]
  have h1 : Finset.univ.sup f < ⊤ := (Finset.sup_lt_iff bot_lt_top).2 fun s _ => hlt s
  have h2 : ⊥ < Finset.univ.sup f := lt_of_lt_of_le ht (Finset.le_sup (Finset.mem_univ t))
  exact ⟨(Finset.univ.sup f).toReal, (EReal.coe_toReal h1.ne h2.ne').symm⟩

theorem attnK_eq_attnR {T D : Nat} {c : EReal} (hc : ∃ r : ℝ, c = (r : EReal)) {q k v : Fin T → Fin D → EReal}
    (hq : ∀ t d, ∃ r : ℝ, q t d = (r : EReal)) (hk : ∀ t d, ∃ r : ℝ, k t d = (r : EReal)) (hv : ∀ t d, ∃ r : ℝ, v t d = (r : EReal))
    (t : Fin T) (d : Fin D) : attnK c q k v t d = attnR c q k v t d := by
  obtain ⟨cr, rfl⟩ := hc
  choose qr hqr using hq
  choose kr hkr using hk
  choose vr hvr using hv
  -- every score of row t is a real number
  obtain ⟨sc, hsc⟩ : ∃ sc : Fin T → ℝ, ∀ s, score (cr : EReal) q k t s = (sc s : EReal) := by
    refine ⟨fun s => (∑ e : Fin D, qr t e * kr s e) * cr, fun s => ?_⟩
    unfold score
    simp only [hqr, hkr]
    rw [EReal.coe_mul, coe_sum]
    simp only [EReal.coe_mul]
  have hmasked : ∀ s, masked (cr : EReal) q k t s = if s.val ≤ t.val then (sc s : EReal) else ⊥ := by
    intro s; unfold masked; rw [hsc]
  have hlt : ∀ s, masked (cr : EReal) q k t s < ⊤ := by
    intro s; rw [hmasked]; split_ifs
    · exact EReal.coe_lt_top _
    · exact bot_lt_top
  have htt : ⊥ < masked (cr : EReal) q k t t := by
    rw [hmasked, if_pos le_rfl]; exact EReal.bot_lt_coe _
  -- the row maximum is a real number
  obtain ⟨M, hM⟩ : ∃ M : ℝ, rowMax (cr : EReal) q k t = (M : EReal) :=
    foldMax_real (masked (cr : EReal) q k t) hlt t htt
  -- the weights are nonnegative reals, positive at s = t
  obtain ⟨p, hp, hp0, hpt⟩ : ∃ p : Fin T → ℝ, (∀ s, expw (cr : EReal) q k t s = (p s : EReal)) ∧ (∀ s, 0 ≤ p s) ∧ 0 < p t := by
    refine ⟨fun s => if s.val ≤ t.val then Real.exp (sc s - M) else 0, fun s => ?_, fun s => ?_, ?_⟩
    · unfold expw
      rw [hM, hmasked]
      by_cases h : s.val ≤ t.val
      · simp only [if_pos h]
        rw [← EReal.coe_sub, Ideal.exp_coe]
      · simp only [if_neg h]
        rw [EReal.bot_sub, Ideal.exp_bot, EReal.coe_zero]
    · show 0 ≤ (if s.val ≤ t.val then Real.exp (sc s - M) else 0)
      split_ifs
      · exact (Real.exp_pos _).le
      · exact le_rfl
    · show 0 < (if t.val ≤ t.val then Real.exp (sc t - M) else 0)
      rw [if_pos le_rfl]; exact Real.exp_pos _
  -- the denominator is a nonzero real
  have hden : denom (cr : EReal) q k t = ((∑ s, p s : ℝ) : EReal) := by
    unfold denom; simp only [hp]; rw [coe_sum]
  have hL : (∑ s, p s) ≠ 0 :=
    (lt_of_lt_of_le hpt (Finset.single_le_sum (fun s _ => hp0 s) (Finset.mem_univ t))).ne'
  unfold attnK attnR
  simp only [hp, hden, hvr]
  simp only [Ideal.div_coe hL]
  exact (weighted_scaled Finset.univ p (fun s => vr s d) (1 / ∑ s, p s)).symm

/-- Every entry of the product of two arrays of reals is a real: a finite sum of products of reals. -/
theorem mm_real {R K N : Nat} {a : (⟨2, ![R, K]⟩ : Shape).Idx → EReal} {b : (⟨2, ![K, N]⟩ : Shape).Idx → EReal}
    (ha : ∀ i, ∃ r : ℝ, a i = (r : EReal)) (hb : ∀ i, ∃ r : ℝ, b i = (r : EReal)) (j : (⟨2, ![R, N]⟩ : Shape).Idx) : ∃ r : ℝ, mm a b j = (r : EReal) := by
  choose ar har using ha
  choose br hbr using hb
  refine ⟨∑ k : Fin K, ar (ix2 (⟨(j 0).val, (j 0).isLt⟩ : Fin R) k) * br (ix2 k (⟨(j 1).val, (j 1).isLt⟩ : Fin N)), ?_⟩
  unfold mm
  simp only [har, hbr]
  rw [coe_sum]
  simp only [EReal.coe_mul]

/-- The single-precision word with sign 0, exponent field 130 and zero fraction is a normal number, (2^23)·2^(130-127-23),
    which is the real 8. -/
theorem scale8_real : ∃ r : ℝ, Ideal.ofBits .f32 0x41000000#32 = (r : EReal) :=
  ⟨8, by simp [Ideal.ofBits, Ideal.ieee, -EReal.coe_mul]; norm_num⟩

end Cert.Forms

end
-- ==== Proof.Bridge.lean ====
/-
  The kernel's result and the reference's result are one function of the four argument arrays, when the activations
  and the first weight are arrays of reals.

  Both are read at an entry (b, t, o). Each side is a sum over the 1024 merged feature columns k of (attention output
  at head (b, k / 64), position t, feature k % 64) times the output weight at (o, k), plus the bias at o; so it is
  enough that the attention outputs agree. On each side the attention of head (b, h) is taken over three 2048×64
  tables, the head's queries, keys and values, and on both sides entry (t, d) of a table is entry
  (b, t, offset + h·64 + d) of the first product ∑ₖ x(b,t,k)·w(·,k), with offset 0, 1024, 2048: the tables are equal.
  The kernel divides once after the weighted sum and the reference divides every weight; on tables of reals, with a
  real scale, the two attentions are equal.
-/
import proofs.«154488_j75634374083254_2_alg».proof.Proof.KernelForm
import proofs.«154488_j75634374083254_2_alg».proof.Proof.RefValue
import proofs.«154488_j75634374083254_2_alg».proof.Proof.RealTables
import proofs.«154488_j75634374083254_2_alg».proof.Proof.Softmax

noncomputable section

open scoped BigOperators

namespace Cert.Bridge

open Idealize.ShloMosaic Idealize.ShloMosaic.ValueIdx Cert.KernelIdeal.Form Cert.ReferenceIdeal.RefValue
  Cert.ReferenceIdeal.Read

/-- Entry (t, d) of head (b, h) of the third of the kernel's projection that starts at column `off` is entry
    (b, t, off + h·64 + d) of the reference's first product: both are ∑ₖ x(b,t,k)·w(off + h·64 + d, k). -/
theorem kHead_qkv (x0 : (⟨3, ![2, 2048, 1024]⟩ : Shape).Idx → EReal) (x1 : (⟨2, ![3072, 1024]⟩ : Shape).Idx → EReal)
    (off : Nat) (hs : Cert.KernelIdeal.S4096x3072.Slices ![0, off] Cert.KernelIdeal.S4096x1024) (hoff : off + 1024 ≤ 3072)
    (b : Fin 2) (h : Fin 16) (t : Fin 2048) (d : Fin 64) :
    kHead off hs (kQKV x0 x1) (ix3 (hd b h) t d)
      = val_main_v0 (F := Ideal) x0 x1 (ix3 b t (⟨off + (h.val * 64 + d.val), by omega⟩ : Fin 3072)) := by
  rw [kHead_apply off hs hoff, qkv_apply]
  show (∑ k : Fin 1024, kX x0 (ix2 (row b t) k) * kW x1 (ix2 k (⟨off + (h.val * 64 + d.val), by omega⟩ : Fin 3072))) = _
  refine Finset.sum_congr rfl fun k _ => ?_
  rw [kX_apply, kW_apply]

/-- The kernel's merged attention output at row (b, t), column (h, d) is the reference's attention output at
    (b, h, t, d). -/
theorem merged_entry (x0 : (⟨3, ![2, 2048, 1024]⟩ : Shape).Idx → EReal) (x1 : (⟨2, ![3072, 1024]⟩ : Shape).Idx → EReal)
    (h0 : ∀ i, ∃ r : ℝ, x0 i = (r : EReal)) (h1 : ∀ i, ∃ r : ℝ, x1 i = (r : EReal))
    (b : Fin 2) (t : Fin 2048) (h : Fin 16) (d : Fin 64) :
    kMerge (kAttn (kQKV x0 x1)) (ix2 (row b t) (feat h d)) = val_main_v28 (F := Ideal) x0 x1 (ix4 b h t d) := by
  rw [kMerge_apply, attn_apply]
  -- the three tables of head (b, h), entry by entry
  have eq : Cert.Forms.head (kHead 0 Cert.KernelIdeal.Gen.slices_S4096x3072_S4096x1024_0_0 (kQKV x0 x1)) (hd b h)
      = fun t d => val_main_v5 (F := Ideal) x0 x1 (ix4 b h t d) := by
    funext t' d'
    show kHead 0 _ (kQKV x0 x1) (ix3 (hd b h) t' d') = _
    rw [kHead_qkv x0 x1 0 _ (by omega), q_apply]
    exact congrArg (fun c => val_main_v0 (F := Ideal) x0 x1 (ix3 b t' c)) (Fin.ext (Nat.zero_add _))
  have ek : Cert.Forms.head (kHead 1024 Cert.KernelIdeal.Gen.slices_S4096x3072_S4096x1024_0_1024 (kQKV x0 x1)) (hd b h)
      = fun s d => val_main_v7 (F := Ideal) x0 x1 (ix4 b h s d) := by
    funext t' d'
    show kHead 1024 _ (kQKV x0 x1) (ix3 (hd b h) t' d') = _
    rw [kHead_qkv x0 x1 1024 _ (by omega), k_apply]
  have ev : Cert.Forms.head (kHead 2048 Cert.KernelIdeal.Gen.slices_S4096x3072_S4096x1024_0_2048 (kQKV x0 x1)) (hd b h)
      = fun s d => val_main_v9 (F := Ideal) x0 x1 (ix4 b h s d) := by
    funext t' d'
    show kHead 2048 _ (kQKV x0 x1) (ix3 (hd b h) t' d') = _
    rw [kHead_qkv x0 x1 2048 _ (by omega), v_apply]
  -- the kernel's attention at head (b, h), entry (t, d), is the one-division attention over those tables
  show Cert.Forms.attnK c8
      (Cert.Forms.head (kHead 0 Cert.KernelIdeal.Gen.slices_S4096x3072_S4096x1024_0_0 (kQKV x0 x1)) (hd b h))
      (Cert.Forms.head (kHead 1024 Cert.KernelIdeal.Gen.slices_S4096x3072_S4096x1024_0_1024 (kQKV x0 x1)) (hd b h))
      (Cert.Forms.head (kHead 2048 Cert.KernelIdeal.Gen.slices_S4096x3072_S4096x1024_0_2048 (kQKV x0 x1)) (hd b h)) t d = _
  rw [eq, ek, ev]
  exact Cert.Forms.attnK_eq_attnR Cert.Forms.scale8_real (q_real x0 x1 h0 h1 b h) (k_real x0 x1 h0 h1 b h)
    (v_real x0 x1 h0 h1 b h) t d

theorem bridge (x0 : (⟨3, ![2, 2048, 1024]⟩ : Shape).Idx → EReal) (x1 : (⟨2, ![3072, 1024]⟩ : Shape).Idx → EReal) (x2 : (⟨2, ![1024, 1024]⟩ : Shape).Idx → EReal) (x3 : (⟨1, ![1024]⟩ : Shape).Idx → EReal)
    (h0 : ∀ i, ∃ r : ℝ, x0 i = (r : EReal)) (h1 : ∀ i, ∃ r : ℝ, x1 i = (r : EReal)) :
    Cert.KernelIdeal.Form.kOut x0 x1 x2 x3 = Cert.ReferenceIdeal.Read.val_main_v34 (F := Ideal) x0 x1 x2 x3 := by
  funext j
  obtain ⟨b, t, o, rfl⟩ : ∃ (b : Fin 2) (t : Fin 2048) (o : Fin 1024), j = ix3 b t o :=
    ⟨⟨(j 0).val, (j 0).isLt⟩, ⟨(j 1).val, (j 1).isLt⟩, ⟨(j 2).val, (j 2).isLt⟩,
      by funext a; match a with | ⟨0, _⟩ => rfl | ⟨1, _⟩ => rfl | ⟨2, _⟩ => rfl⟩
  rw [out_apply]
  unfold kOut
  rw [kFinal_apply]
  -- the output product with its bias row, read at (row (b, t), o)
  show (∑ k : Fin 1024, kMerge (kAttn (kQKV x0 x1)) (ix2 (row b t) k) * kWp x2 (ix2 k o)) + kB x3 (ix2 (0 : Fin 1) o) = _
  rw [kB_apply]
  refine congrArg (· + x3 (ix1 o)) (Finset.sum_congr rfl fun k _ => ?_)
  rw [kWp_apply]
  refine congrArg (· * x2 (ix2 o k)) ?_
  -- column k is feature (k / 64, k % 64)
  have hk : feat (⟨k.val / 64, by omega⟩ : Fin 16) (⟨k.val % 64, by omega⟩ : Fin 64) = k :=
    Fin.ext (by show k.val / 64 * 64 + k.val % 64 = k.val; omega)
  have hm := merged_entry x0 x1 h0 h1 b t (⟨k.val / 64, by omega⟩ : Fin 16) (⟨k.val % 64, by omega⟩ : Fin 64)
  rw [hk] at hm
  exact hm

end Cert.Bridge

end
-- ==== Proof.Finite.lean ====
/-
  The finiteness precondition, read back: when the printed predicate returns true, every entry of each of its four
  arguments is a real number.

  The predicate is the conjunction of four tests, one per argument, each of the form "all entries satisfy |x| < +∞".
  A conjunction of one-bit words is 1 exactly when both words are 1, so each test is 1. Each test is a reduction by
  "and" of an array of comparison bits into a single word, so every comparison bit is 1. The bit at an entry x compares
  max x (-x) with the value of the single-precision word whose exponent field is all ones and whose fraction is zero,
  which is +∞. An extended real x with max x (-x) < +∞ is neither +∞ nor -∞ (whose negation is +∞): it is a real number.
-/
import proofs.«154488_j75634374083254_2_alg».proof.Pre_finite_inputs
import proofs.«154488_j75634374083254_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx

/-- The single-precision word with sign 0, exponent field all ones and zero fraction denotes +∞. -/
theorem ofBits_inf : Ideal.ofBits .f32 0x7F800000#32 = (⊤ : EReal) := by
  simp [Ideal.ofBits, Ideal.ieee]

/-- An extended real whose absolute value, max x (-x), lies below +∞ is a real number. -/
theorem real_of_abs_lt_top {x : EReal} (h : max x (-x) < ⊤) : ∃ r : ℝ, x = (r : EReal) := by
  induction x using EReal.rec with
  | bot => simp at h
  | coe r => exact ⟨r, rfl⟩
  | top => simp at h

/-- One comparison bit of the test "|x| < +∞": when it is 1, the entry it reads is a real number. The bit at index i
    is the decision of max (x i) (-(x i)) < (the broadcast constant), and the broadcast of a scalar is that scalar at
    every index. -/
theorem real_of_cmp {s : Shape} (x : FVec Ideal s .f32)
    (hb : Cert.Pre_finite_inputs.S_.BroadcastsInDim s (![] : Fin 0 → Fin s.rank)) (i : s.Idx)
    (h : cmpf CmpFPredicate.olt (Host.absf x)
      (broadcastInDim s ![] hb (constant Cert.Pre_finite_inputs.S_ .f32 0x7F800000#32)) i = 1#1) :
    ∃ r : ℝ, x i = (r : EReal) := by
  change BitVec.ofBool (decide (max (x i) (-(x i)) < Ideal.ofBits .f32 0x7F800000#32)) = 1#1 at h
  rw [ofBits_inf] at h
  refine real_of_abs_lt_top ?_
  by_contra hn
  rw [decide_eq_false hn] at h
  exact absurd h (by decide)

theorem real_of_pre [Cert.Pre_finite_inputs.Facts]
    (x0 : FVec Ideal Cert.Pre_finite_inputs.S2x2048x1024 .f32) (x1 : FVec Ideal Cert.Pre_finite_inputs.S3072x1024 .f32)
    (x2 : FVec Ideal Cert.Pre_finite_inputs.S1024x1024 .f32) (x3 : FVec Ideal Cert.Pre_finite_inputs.S1024 .f32)
    (h : Cert.Pre_finite_inputs.fn (F := Ideal) x0 x1 x2 x3 = (fun _ => 1#1)) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  -- the scalar shape has one index
  haveI : Subsingleton Cert.Pre_finite_inputs.S_.Idx := ⟨fun a b => funext fun d => d.elim0⟩
  -- the predicate's one output word, as the conjunction of the four tests
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hA, hB⟩ := IntOp.andi_eq_one.1 h01
  -- each test is a reduction by "and" over all axes: every comparison bit is 1, so every entry is real
  exact ⟨fun i => real_of_cmp x0 _ i (Host.reduce_andi_all _ _ _ _ _ hA i),
    fun i => real_of_cmp x1 _ i (Host.reduce_andi_all _ _ _ _ _ hB i),
    fun i => real_of_cmp x2 _ i (Host.reduce_andi_all _ _ _ _ _ h2 i),
    fun i => real_of_cmp x3 _ i (Host.reduce_andi_all _ _ _ _ _ h3 i)⟩

end Cert.Finite

end
-- ==== Proof.lean ====
/-
  Causal self-attention in three pipelined regions against its jnp reference, over the extended reals.

  Both programs compute, for the 2×2048×1024 input x and the stored weights: the projection x·w_qkvᵀ; its three thirds
  regrouped as the query, key and value tables of 2·16 heads; per head the scores q·kᵀ·8 masked to -∞ above the diagonal,
  each row's maximum, the exponentials of the scores less that maximum and their row sum; the weighted sum of value rows
  divided by the row sum; the heads merged back; the product with w_projᵀ plus the bias. They differ in two ways only. The
  kernel works on the flattened 4096 rows and 32 heads, tile by tile, where the reference keeps the axes (b, t) and (b, h):
  the same entries under b·2048 + t, b·16 + h and h·64 + d. And the kernel divides the weighted sum by the row sum ONCE
  per output entry, while the reference's softmax divides every weight first: on finite inputs every table is finite, the
  row maximum is attained at a visible position so the row sum is a positive real, and the two agree by distributivity of
  multiplication over a finite real sum. The kernel's finite stand-in for -∞ is named, and denotes -∞ here (the one
  ledger entry). The frames are the programs' generated frame certificates (the kernel's in the copies that bind the grid
  position the attention body reads) and the reference's generated run.
-/
import proofs.«154488_j75634374083254_2_alg».proof.Defs
import proofs.«154488_j75634374083254_2_alg».proof.Proof.Gen.Kernel
import proofs.«154488_j75634374083254_2_alg».proof.Proof.Gen.KernelIdeal
import proofs.«154488_j75634374083254_2_alg».proof.Proof.Gen.ReferenceIdeal
import proofs.«154488_j75634374083254_2_alg».proof.Proof.Gen.Pre_finite_inputs
import proofs.«154488_j75634374083254_2_alg».proof.Proof.KernelFrame
import proofs.«154488_j75634374083254_2_alg».proof.Proof.KernelIdealFrame
import proofs.«154488_j75634374083254_2_alg».proof.Proof.Gen.ReferenceIdeal.Run
import proofs.«154488_j75634374083254_2_alg».proof.Proof.Gen.ReferenceIdeal.Read
import proofs.«154488_j75634374083254_2_alg».proof.Proof.KernelRun
import proofs.«154488_j75634374083254_2_alg».proof.Proof.KernelChain
import proofs.«154488_j75634374083254_2_alg».proof.Proof.Bridge
import proofs.«154488_j75634374083254_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: the name "neg_big" denotes -∞, and the printed constant is that value over the extended reals. -/
theorem preserves : Cert.preserves_Kernel_KernelIdeal :=
  IdealRules.named_const.statement Cert.KernelIdeal.κ "neg_big" .f32 0xFF333332#32 ⊥ rfl

/-- From memories agreeing on finite arguments both programs end with the same result array: the kernel's at its function
    `kOut` of the arguments, the reference's at its last stage, and the two are one function on finite data. -/
theorem algebraic : Cert.algebraic_KernelIdeal_ReferenceIdeal := by
  intro m ρ m' ρ' hpre hagree
  refine ⟨fun c => Cert.KernelIdeal.Form.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Chain.result_eq m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, -, -⟩ := Cert.Finite.real_of_pre _ _ _ _ (hpre c)
    rw [Cert.ReferenceIdeal.Read.val_main_v34_eq, (hagree c).1, (hagree c).2.1, (hagree c).2.2.1, (hagree c).2.2.2]
    exact (Cert.Bridge.bridge _ _ _ _ h0 h1).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
